-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 99999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : IVec S16384 32) (main_arg1 : IVec S16384 32) (main_arg2 : FVec F S100000x128 .f32) (main_arg3 : FVec F S100000x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 99999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384 : Shape := ⟨1, ![16384]⟩
abbrev S100000x128 : Shape := ⟨2, ![100000, 128]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 6
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S16384x128, .f32⟩
  | .hbm, ⟨5, _⟩ => ⟨S16384x128, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  hcc0_scratch3 : 0 + S_.numel ≤ 5
  hcc0_scratch4 : 1 + S_.numel ≤ 5
  hcc0_scratch5 : 2 + S_.numel ≤ 5
  hcc0_scoped0 : 3 + S_.numel ≤ 5
  hcc0_scoped1 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0
abbrev cc0_scoped1 : DmaSems sig S_ := SemArray.consecutive 4 S_ hcc0_scoped1

class Facts : Prop extends Facts₀ where

variable [Facts]
-- ==== ReferenceIdeal.lean ====
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x128, .f32⟩
  | .hbm, ⟨46, _⟩ => ⟨S16384x128, .i1⟩
  | .hbm, ⟨47, _⟩ => ⟨S_, .f32⟩
  | .hbm, ⟨48, _⟩ => ⟨S16384x128, .f32⟩
  | .hbm, ⟨49, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Domain.lean ====
/-
  The precondition read back as index ranges.  The precondition is one bit: the conjunction of four "all" reductions, two
  over the float tables (every entry finite) and two over the index arrays (every word w satisfies 0 ≤ w and w ≤ 99999,
  both compared SIGNED).  The claim assumes that bit is 1.  A conjunction of bits that is 1 has every conjunct 1; an "all"
  (a reduction by "and" from 1 into a result of one index) that is 1 had a 1 at every element; and a 32-bit word that is
  at least 0 and at most 99999 read signed has its top bit clear, so read unsigned it is the same number, below 100000.
  The two float conjuncts are not used, so the statement holds for every float instance.
-/
import proofs.«203863_g44332652429991_cont_8to1_c_1117_11_alg».proof.Pre_input_domain
import proofs.«203863_g44332652429991_cont_8to1_c_1117_11_alg».proof.Proof.Gen.Pre_input_domain
import Idealize.ShloMosaic.Lib.ValueIdx
import Idealize.ShloMosaic.Lib.ReduceAll

noncomputable section

namespace Cert.Domain

open Idealize.ShloMosaic Idealize.ShloMosaic.ValueIdx Cert.Pre_input_domain

/-- The scalar shape has one index. -/
instance subsingleton_scalar_idx : Subsingleton S_.Idx := ⟨fun a b => funext fun d => d.elim0⟩

/-- A 32-bit word with 0 ≤ w and w ≤ 99999, both read signed, is below 100000 read unsigned: a nonnegative signed word
    has its top bit clear, so its signed and unsigned readings agree. -/
theorem toNat_lt_of_signed_range (w : BitVec 32)
    (h : IntOp.andi (IntOp.cmpi .sge w 0#32) (IntOp.cmpi .sle w 99999#32) = 1#1) : w.toNat < 100000 := by
  obtain ⟨h0, h1⟩ := IntOp.andi_eq_one.1 h
  rw [IntOp.cmpi_sge, show (0#32 : BitVec 32).toInt = 0 from by decide] at h0
  rw [IntOp.cmpi_sle, show (99999#32 : BitVec 32).toInt = 99999 from by decide] at h1
  have hc := BitVec.toInt_eq_toNat_cond w
  split at hc <;> omega

/-- THE PRECONDITION DECODED: every word of both index arrays is below 100000, read unsigned. -/
theorem range_of_pre {F : FTy → Type} [FloatOps F] [Cert.Pre_input_domain.Facts]
    (a0 a1 : IVec Cert.Pre_input_domain.S16384 32) (a2 a3 : FVec F Cert.Pre_input_domain.S100000x128 .f32)
    (h : Cert.Pre_input_domain.fn (F := F) a0 a1 a2 a3 = fun _ => 1#1) :
    (∀ i, (a0 i).toNat < 100000) ∧ (∀ i, (a1 i).toNat < 100000) := by
  -- the precondition's one bit, as the conjunction of the four reductions
  have e := congrFun h ix0
  dsimp only [fn, fn_part1] at e
  -- a conjunction of bits that is 1: split off the second index array's reduction, then the first's
  obtain ⟨e', e1⟩ := IntOp.andi_eq_one.1 (show IntOp.andi _ _ = 1#1 from e)
  obtain ⟨-, e0⟩ := IntOp.andi_eq_one.1 (show IntOp.andi _ _ = 1#1 from e')
  -- each reduction that is 1 had a 1 at every element, and the element is the two signed comparisons of the word
  exact ⟨fun i => toNat_lt_of_signed_range (a0 i) (Host.reduce_andi_all _ _ _ _ ix0 e0 i),
    fun i => toNat_lt_of_signed_range (a1 i) (Host.reduce_andi_all _ _ _ _ ix0 e1 i)⟩

end Cert.Domain

end
-- ==== Proof.Spec.lean ====
/-
  The function both programs compute: a row lookup.  Entry `(r, d)` of the result is entry `(k, d)` of the table,
  where `k` is the row the `r`-th index word names: the word read as an unsigned number (held at the last row,
  99999, were it larger — an index in range names its own row, and only such indices occur).
-/
import Idealize.ShloMosaic.Lib.ValueIdx

noncomputable section

namespace Cert.Lookup

open Idealize.ShloMosaic Idealize.ShloMosaic.ValueIdx

/-- The table row an index word names: its unsigned value, held at the last row 99999. -/
def rowAt (w : BitVec 32) : Fin 100000 := ⟨min w.toNat 99999, by omega⟩

/-- An index word below the table's extent names the row of its own value. -/
theorem rowAt_val {w : BitVec 32} (h : w.toNat < 100000) : (rowAt w).val = w.toNat := by
  show min w.toNat 99999 = w.toNat
  omega

/-- The lookup of 16384 rows of 128 entries in a table of 100000 rows: entry `(r, d)` of the result is the table's
    entry `(rowAt (idx r), d)`. -/
def rows {X : Type} (tbl : (⟨2, ![100000, 128]⟩ : Shape).Idx → X) (idx : (⟨1, ![16384]⟩ : Shape).Idx → BitVec 32) :
    (⟨2, ![16384, 128]⟩ : Shape).Idx → X :=
  fun j => tbl (ix2 (rowAt (idx (ix1 ⟨(j 0).val, idx2_lt0 j⟩))) ⟨(j 1).val, idx2_lt1 j⟩)

/-- The lookup at the index of coordinates `(r, d)`. -/
theorem rows_ix2 {X : Type} (tbl : (⟨2, ![100000, 128]⟩ : Shape).Idx → X) (idx : (⟨1, ![16384]⟩ : Shape).Idx → BitVec 32)
    (r : Fin 16384) (d : Fin 128) : rows tbl idx (ix2 r d) = tbl (ix2 (rowAt (idx (ix1 r))) d) := rfl

end Cert.Lookup

end
-- ==== Proof.TileK.lean ====
/-
  One tile's task of the lookup kernel, at a symbolic place.  The kernel runs on the two SparseCores' sixteen tiles
  each; tile `(c, s)` owns chunk `c + 2 s` of the 32 chunks of 512 consecutive rows: it fetches its 512 index words of
  each index array, gathers the rows of the first table they name into its row buffer, writes the buffer out as its
  chunk of the first result, and does the same with the second index array, table and result.  Every copy is waited
  for before its buffers are touched again, so a chunk of a result ends holding, at row `r` and column `k`, the
  table's entry at row `idx r` and column `k`: the lookup function of the whole arrays, read on the chunk.
-/
import proofs.«203863_g44332652429991_cont_8to1_c_1117_11_alg».proof.Proof.Gen.Kernel
import proofs.«203863_g44332652429991_cont_8to1_c_1117_11_alg».proof.Proof.Gen.Kernel.Skeleton
import proofs.«203863_g44332652429991_cont_8to1_c_1117_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev o0Loc (d : Dev nD) : Loc nD τ sig := (SparseCore.T d).loc main_v0_0
abbrev o1Loc (d : Dev nD) : Loc nD τ sig := (SparseCore.T d).loc main_v0_1

local notation "uV" => (Memref.whole Cert.Kernel.main_arg0_scv : Memref Cert.Kernel.sig Kind.scVector Space.hbm Cert.Kernel.S16384 EltTy.i32)
local notation "iV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "o0V" => (Memref.whole Cert.Kernel.main_v0_0_scv : Memref Cert.Kernel.sig Kind.scVector Space.hbm Cert.Kernel.S16384x128 EltTy.f32)
local notation "o1V" => (Memref.whole Cert.Kernel.main_v0_1_scv : Memref Cert.Kernel.sig Kind.scVector Space.hbm Cert.Kernel.S16384x128 EltTy.f32)
local notation "suV" => (Memref.whole Cert.Kernel.cc0_scratch0 : Memref Cert.Kernel.sig Kind.scVector Space.vmem Cert.Kernel.S512 EltTy.i32)
local notation "siV" => (Memref.whole Cert.Kernel.cc0_scratch1 : Memref Cert.Kernel.sig Kind.scVector Space.vmem Cert.Kernel.S512 EltTy.i32)
local notation "rV" => (Memref.whole Cert.Kernel.cc0_scratch2 : Memref Cert.Kernel.sig Kind.scVector Space.vmem Cert.Kernel.S512x128 EltTy.f32)

/-! ## The 32 chunks of 512 rows -/

theorem idiv : 32 ∣ S16384.size 0 := ⟨512, rfl⟩
theorem odiv : 32 ∣ S16384x128.size 0 := ⟨512, rfl⟩
abbrev ichunk (w : Fin 32) : Rect S16384 := Rect.part (s := S16384) (a₀ := 0) idiv w
abbrev ochunk (w : Fin 32) : Rect S16384x128 := Rect.part (s := S16384x128) (a₀ := 0) odiv w
abbrev iChunkSet (w : Fin 32) : Finset S16384.Idx := ((uV).view.slice (ichunk w)).set
abbrev oChunkSet (w : Fin 32) : Finset S16384x128.Idx := ((o0V).view.slice (ochunk w)).set

/-- The chunk of tile `(c, s)`: number `c + 2 s`. -/
def wOf (c : Fin 2) (s : Fin 16) : Fin 32 := ⟨c.val + 2 * s.val, by omega⟩

/-- Tile `w`'s read share of a table: one of 32 equal pieces of the full share. -/
abbrev tq (w : Fin 32) : PosShare TreeShare := pieceOf fullShare 32 (by decide) w

variable [FloatOps F]

/-! ## What a tile is handed and hands back -/

abbrev uChunkPts (d : Dev nD) (w : Fin 32) : sProp 𝕄 := uLoc d ↦[(ichunk w).set]{fullShare} m (uLoc d)
abbrev iChunkPts (d : Dev nD) (w : Fin 32) : sProp 𝕄 := iLoc d ↦[(ichunk w).set]{fullShare} m (iLoc d)
abbrev utShPts (d : Dev nD) (w : Fin 32) : sProp 𝕄 := utLoc d ↦{tq w} m (utLoc d)
abbrev itShPts (d : Dev nD) (w : Fin 32) : sProp 𝕄 := itLoc d ↦{tq w} m (itLoc d)
abbrev o0ChunkPts (d : Dev nD) (w : Fin 32) (f : Buf (Elt F) (o0Loc d)) : sProp 𝕄 := o0Loc d ↦[(ochunk w).set]{fullShare} f
abbrev o1ChunkPts (d : Dev nD) (w : Fin 32) (f : Buf (Elt F) (o1Loc d)) : sProp 𝕄 := o1Loc d ↦[(ochunk w).set]{fullShare} f

/-- The first result as the lookup says it: rows of the first table at the first index array. -/
def out0 (d : Dev nD) : Buf (Elt F) (o0Loc d) := Cert.Lookup.rows (m (utLoc d)) (m (uLoc d))
/-- The second result: rows of the second table at the second index array. -/
def out1 (d : Dev nD) : Buf (Elt F) (o1Loc d) := Cert.Lookup.rows (m (itLoc d)) (m (iLoc d))

/-- What the proof asks of the launch memory: every index word names a row of its table. -/
def PreOK : Prop := ∀ d : Dev nD, (∀ j : S16384.Idx, (m (uLoc d) j).toNat < 100000) ∧ (∀ j : S16384.Idx, (m (iLoc d) j).toNat < 100000)

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The chunk of the tile at grid point `L`. -/
abbrev wL (L : grid0.Coords) : Fin 32 := ⟨(L 0).val + 2 * (L 1).val, by
  have h0 : (L 0).val < 2 := (L 0).isLt
  have h1 : (L 1).val < 16 := (L 1).isLt
  omega⟩

abbrev irectK (L : grid0.Coords) : Rect S16384 := Rect.unit (s := S16384) (k0_off1 L) S512.size (k0_off1_inb L)
abbrev orectK (L : grid0.Coords) : Rect S16384x128 := Rect.unit (s := S16384x128) (k0_off2 L) S512x128.size (k0_off2_inb L)
/-- The tile's chunks of the index arrays and of the results, and the whole tables, as the task addresses them. -/
abbrev uChunkK (L : grid0.Coords) : Memref sig .scVector .hbm S512 .i32 := (uV).slice (irectK L) (fun _ => rfl)
abbrev iChunkK (L : grid0.Coords) : Memref sig .scVector .hbm S512 .i32 := (iV).slice (irectK L) (fun _ => rfl)
abbrev o0ChunkK (L : grid0.Coords) : Memref sig .scVector .hbm S512x128 .f32 := (o0V).slice (orectK L) (fun _ => rfl)
abbrev o1ChunkK (L : grid0.Coords) : Memref sig .scVector .hbm S512x128 .f32 := (o1V).slice (orectK L) (fun _ => rfl)
abbrev utAllK : Memref sig .scVector .hbm S100000x128 .f32 := (utV).slice (Rect.unit (s := S100000x128) ![0, 0] S100000x128.size inb_S100000x128_S100000x128_0_0) (fun _ => rfl)
abbrev itAllK : Memref sig .scVector .hbm S100000x128 .f32 := (itV).slice (Rect.unit (s := S100000x128) ![0, 0] S100000x128.size inb_S100000x128_S100000x128_0_0) (fun _ => rfl)

omit [FloatOps F] in
theorem irectK_eq : irectK L = ichunk (wL L) := by
  unfold irectK ichunk Rect.part Rect.block
  congr 1 <;> funext a
  · rw [k0_off1_eq]
    match a with
    | 0 => simp [Shape.partIx, Shape.partSize]; omega
  · match a with
    | 0 => simp [Shape.partSize]
omit [FloatOps F] in
theorem orectK_eq : orectK L = ochunk (wL L) := by
  unfold orectK ochunk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_uChunkK : (uChunkK L).view.set = (ichunk (wL L)).set := by
  show ((uV).view.slice (irectK L)).set = _
  rw [irectK_eq L, View.set_slice]; exact Finset.map_refl
omit [FloatOps F] in
theorem set_iChunkK : (iChunkK L).view.set = (ichunk (wL L)).set := by
  show ((iV).view.slice (irectK L)).set = _
  rw [irectK_eq L, View.set_slice]; exact Finset.map_refl
omit [FloatOps F] in
theorem set_o0ChunkK : (o0ChunkK L).view.set = (ochunk (wL L)).set := by
  show ((o0V).view.slice (orectK L)).set = _
  rw [orectK_eq L, View.set_slice]; exact Finset.map_refl
omit [FloatOps F] in
theorem set_o1ChunkK : (o1ChunkK L).view.set = (ochunk (wL L)).set := by
  show ((o1V).view.slice (orectK L)).set = _
  rw [orectK_eq L, View.set_slice]; exact Finset.map_refl

omit [FloatOps F] in
theorem pts_uChunkK (f : Buf (Elt F) (uLoc d)) :
    ((uChunkK L).view.loc (V d (cV L) (jV L)) ↦[(uChunkK L).view.set]{fullShare} f : sProp 𝕄) = uLoc d ↦[(ichunk (wL L)).set]{fullShare} f := by
  rw [set_uChunkK]
omit [FloatOps F] in
theorem pts_iChunkK (f : Buf (Elt F) (iLoc d)) :
    ((iChunkK L).view.loc (V d (cV L) (jV L)) ↦[(iChunkK L).view.set]{fullShare} f : sProp 𝕄) = iLoc d ↦[(ichunk (wL L)).set]{fullShare} f := by
  rw [set_iChunkK]
omit [FloatOps F] in
theorem pts_o0ChunkK (f : Buf (Elt F) (o0Loc d)) :
    ((o0ChunkK L).view.loc (V d (cV L) (jV L)) ↦[(o0ChunkK L).view.set]{fullShare} f : sProp 𝕄) = o0Loc d ↦[(ochunk (wL L)).set]{fullShare} f := by
  rw [set_o0ChunkK]
omit [FloatOps F] in
theorem pts_o1ChunkK (f : Buf (Elt F) (o1Loc d)) :
    ((o1ChunkK L).view.loc (V d (cV L) (jV L)) ↦[(o1ChunkK L).view.set]{fullShare} f : sProp 𝕄) = o1Loc d ↦[(ochunk (wL L)).set]{fullShare} f := by
  rw [set_o1ChunkK]
omit [FloatOps F] in
theorem pts_utV (q : PosShare TreeShare) (f : Buf (Elt F) (utLoc d)) :
    ((utV).view.loc (V d (cV L) (jV L)) ↦{q} f : sProp 𝕄) = utLoc d ↦{q} f := rfl
omit [FloatOps F] in
theorem pts_itV (q : PosShare TreeShare) (f : Buf (Elt F) (itLoc d)) :
    ((itV).view.loc (V d (cV L) (jV L)) ↦{q} f : sProp 𝕄) = itLoc d ↦{q} f := rfl
omit [FloatOps F] in
theorem pts_suV (f : Buf (Elt F) ((V d (cV L) (jV L)).loc cc0_scratch0)) :
    ((suV).view.loc (V d (cV L) (jV L)) ↦{fullShare} f : sProp 𝕄) = (V d (cV L) (jV L)).loc cc0_scratch0 ↦{fullShare} f := rfl
omit [FloatOps F] in
theorem pts_siV (f : Buf (Elt F) ((V d (cV L) (jV L)).loc cc0_scratch1)) :
    ((siV).view.loc (V d (cV L) (jV L)) ↦{fullShare} f : sProp 𝕄) = (V d (cV L) (jV L)).loc cc0_scratch1 ↦{fullShare} f := rfl
omit [FloatOps F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The five DMA cells a tile's copies complete on. -/
abbrev cell (k : DmaSems sig S_) (d : Dev nD) (c : Fin τ.nSC) (i : Fin τ.nSub) : GSem nD τ sig := (V d c i, .dma k.sem)

omit [FloatOps F] in
theorem ownSems0_V :
    (ownSems0 (V d (cV L) (jV L)) : sProp 𝕄)
      = iprop(semVal (cell cc0_scratch3 d (cV L) (jV L)) 0 ∗ semVal (cell cc0_scratch4 d (cV L) (jV L)) 0 ∗ semVal (cell cc0_scratch5 d (cV L) (jV L)) 0
          ∗ semVal (cell cc0_scoped0 d (cV L) (jV L)) 0 ∗ semVal (cell cc0_scoped1 d (cV L) (jV L)) 0
          ∗ bigSep ((((((ownCells (V d (cV L) (jV L))).erase (cell cc0_scratch3 d (cV L) (jV L))).erase (cell cc0_scratch4 d (cV L) (jV L))).erase
              (cell cc0_scratch5 d (cV L) (jV L))).erase (cell cc0_scoped0 d (cV L) (jV L))).erase (cell cc0_scoped1 d (cV L) (jV L))) fun g => semVal g 0) := by
  unfold SparseCore.Cfg.ownSems0
  have hm : ∀ k : DmaSems sig S_, (SemLoc.dma k.sem : SemLoc sig).isScoped .scVector = true →
      cell k d (cV L) (jV L) ∈ ownCells (V d (cV L) (jV L)) := fun k hk => (mem_ownCells (g := cell k d (cV L) (jV L))).mpr ⟨rfl, hk⟩
  have hne : ∀ k k' : DmaSems sig S_, k.sem ≠ k'.sem → cell k d (cV L) (jV L) ≠ cell k' d (cV L) (jV L) := fun k k' h e => h (by
    have := congrArg Prod.snd e; simpa [cell] using this)
  rw [SparseCore.bigSep_erase' (hm cc0_scratch3 (by decide)),
    SparseCore.bigSep_erase' (Finset.mem_erase.mpr ⟨hne _ _ (by decide), hm cc0_scratch4 (by decide)⟩),
    SparseCore.bigSep_erase' (Finset.mem_erase.mpr ⟨hne _ _ (by decide), Finset.mem_erase.mpr ⟨hne _ _ (by decide), hm cc0_scratch5 (by decide)⟩⟩),
    SparseCore.bigSep_erase' (Finset.mem_erase.mpr ⟨hne _ _ (by decide), Finset.mem_erase.mpr ⟨hne _ _ (by decide), Finset.mem_erase.mpr ⟨hne _ _ (by decide), hm cc0_scoped0 (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped1 (by decide)⟩⟩⟩⟩)]

omit [FloatOps F] in
/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have hne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne _ _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch2) rfl⟩⟩)]

/-- What the first index fetch leaves in its list is the tile's chunk of the first index array, and every word of that
    array names a row of the table: so does every word of the list. -/
theorem u_list_inb (hpre : PreOK m) (fs : Buf (Elt F) ((V d (cV L) (jV L)).loc cc0_scratch0)) (pay : S512.Idx → Elt F .i32)
    (hpay : pay = (uChunkK L).view.read (Elt F) (m (uLoc d))) (x : S512.Idx) :
    ((suV).view.read (Elt F) (View.write (Elt F) (suV).view fs pay Finset.univ) x).toNat < S100000x128.size gathers_S100000x128_S512x128.axis := by
  rw [View.read_write_univ, hpay, View.read_apply]
  exact (hpre d).1 _

/-- The same for the second index fetch and the second index array. -/
theorem i_list_inb (hpre : PreOK m) (fs : Buf (Elt F) ((V d (cV L) (jV L)).loc cc0_scratch1)) (pay : S512.Idx → Elt F .i32)
    (hpay : pay = (iChunkK L).view.read (Elt F) (m (iLoc d))) (x : S512.Idx) :
    ((siV).view.read (Elt F) (View.write (Elt F) (siV).view fs pay Finset.univ) x).toNat < S100000x128.size gathers_S100000x128_S512x128.axis := by
  rw [View.read_write_univ, hpay, View.read_apply]
  exact (hpre d).2 _

end Tile

end Cert.Proof.K

end
-- ==== Proof.GatherRead.lean ====
/-
  The indirect row gather, read at coordinates.  The gather of rows of a table of 100000 rows of 128 entries into a block
  of 512 rows, by a list of 512 row numbers, delivers at the destination's entry (r, k) the table's entry (w, k), where w
  is the r-th word of the list read as an unsigned number: on the gathered axis (the rows) the source coordinate is the
  row the list names for destination row r, and on the other axis it is the destination's own coordinate k.  The list is
  a rank-1 array, so its r-th entry in row-major order is its entry at the index of coordinate r.
-/
import Idealize.ShloMosaic.Lib.SparseCore.Stream
import Idealize.ShloMosaic.Lib.ValueIdx

noncomputable section

namespace Cert.GatherRead

open Idealize.ShloMosaic Idealize.ShloMosaic.ValueIdx Idealize.ShloMosaic.SparseCore

/-- In a rank-1 array the entry at row-major position m is the entry at the index whose one coordinate is m. -/
theorem rowMajor_symm_ix1 {n : Nat} (m : Fin (⟨1, ![n]⟩ : Shape).numel) (r : Fin n) (h : m.val = r.val) :
    (⟨1, ![n]⟩ : Shape).rowMajor.symm m = ix1 r := by
  rw [Equiv.symm_apply_eq]
  apply Fin.ext
  rw [Shape.rowMajor_val_one]
  exact h

/-- THE GATHER AT COORDINATES: entry (r, k) of the gathered block is the table's entry (w, k), w the r-th list word. -/
theorem gatherPayload_ix2 {F : FTy → Type}
    (hg : (⟨2, ![100000, 128]⟩ : Shape).Gathers 0 (⟨2, ![512, 128]⟩ : Shape))
    (g : (⟨2, ![100000, 128]⟩ : Shape).Idx → Elt F .f32) (offs : (⟨1, ![512]⟩ : Shape).Idx → Elt F .i32)
    (hn : (⟨1, ![512]⟩ : Shape).numel = (⟨2, ![512, 128]⟩ : Shape).size hg.axis')
    (hin : ∀ x, (offs x).toNat < (⟨2, ![100000, 128]⟩ : Shape).size hg.axis) (r : Fin 512) (k : Fin 128) :
    gatherPayload hg g (rows offs hn hin) (ix2 r k) = g (ix2 (⟨(offs (ix1 r)).toNat, hin (ix1 r)⟩ : Fin 100000) k) := by
  unfold gatherPayload
  refine congrArg g ?_
  funext b
  match b with
  | ⟨0, hb⟩ =>
    -- the gathered axis: the source row is the row the list names for destination row r
    apply Fin.ext
    refine (congrArg Fin.val (Shape.Gathers.idx_axis hg (rows offs hn hin) (ix2 r k))).trans ?_
    have e : (⟨1, ![512]⟩ : Shape).rowMajor.symm (Fin.cast hn.symm (ix2 r k hg.axis')) = ix1 r :=
      rowMajor_symm_ix1 _ r rfl
    show (offs ((⟨1, ![512]⟩ : Shape).rowMajor.symm (Fin.cast hn.symm (ix2 r k hg.axis')))).toNat = (offs (ix1 r)).toNat
    rw [e]
  | ⟨1, hb⟩ =>
    -- the other axis: the destination's own coordinate
    apply Fin.ext
    exact Shape.Gathers.idx_of_ne hg (rows offs hn hin) (ix2 r k) ⟨1, hb⟩ Nat.one_ne_zero

end Cert.GatherRead

end
-- ==== Proof.ChunkK.lean ====
/-
  The lookup, read on one tile's chunk.  A tile fetches the 512 index words of its chunk, gathers the table rows they
  name into a block of 512 rows of 128 entries, and writes the block out as its chunk of the result.  Entry (r, k) of the
  written chunk is therefore the table's entry (w, k), where w is word r of the tile's chunk of the index array, read
  unsigned; the chunk starts at row 1024 s + 512 c of the index array and of the result alike, so that word is the index
  array's word at the result row the entry lies in, and, every index word being below 100000, the table row it names is
  the row the lookup function names: the written chunk is the lookup of the whole arrays on the chunk's entries.
-/
import proofs.«203863_g44332652429991_cont_8to1_c_1117_11_alg».proof.Proof.TileK
import proofs.«203863_g44332652429991_cont_8to1_c_1117_11_alg».proof.Proof.GatherRead
import Idealize.ShloMosaic.Lib.Exec.Geometry

noncomputable section

namespace Cert.Proof.K

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ) [FloatOps F] (d : Dev nD) (L : grid0.Coords)

/-! ## The embeddings, by coordinates -/

omit [FloatOps F] in
/-- Row r of the tile's chunk of an index array is row 1024 s + 512 c + r of the array. -/
theorem irectK_emb_val (r : Fin 512) : ((irectK L).emb (ix1 r) 0).val = 1024 * (L 1).val + 512 * (L 0).val + r.val := by
  rw [Rect.emb_apply]
  show k0_off1 L 0 + 1 * r.val = _
  rw [k0_off1_eq]
  show (1024 * (L 1).val + 512 * (L 0).val) + 1 * r.val = _
  omega

omit [FloatOps F] in
/-- Entry (r, k) of the tile's chunk of a result lies in row 1024 s + 512 c + r of the result … -/
theorem orectK_emb_val0 (r : Fin 512) (k : Fin 128) :
    ((orectK L).emb (ix2 r k) 0).val = 1024 * (L 1).val + 512 * (L 0).val + r.val := by
  rw [Rect.emb_apply]
  show k0_off2 L 0 + 1 * r.val = _
  rw [k0_off2_eq]
  show (1024 * (L 1).val + 512 * (L 0).val) + 1 * r.val = _
  omega

omit [FloatOps F] in
/-- … and in column k. -/
theorem orectK_emb_val1 (r : Fin 512) (k : Fin 128) : ((orectK L).emb (ix2 r k) 1).val = k.val := by
  rw [Rect.emb_apply]
  show k0_off2 L 1 + 1 * k.val = _
  rw [k0_off2_eq]
  show 0 + 1 * k.val = _
  omega

omit [FloatOps F] in
/-- The rectangle of a whole table, offsets 0 and the table's own extents, places every index at itself. -/
theorem allRect_emb (x : S100000x128.Idx) :
    (Rect.unit (s := S100000x128) ![0, 0] S100000x128.size inb_S100000x128_S100000x128_0_0).emb x = x := by
  funext a
  apply Fin.ext
  rw [Rect.emb_apply]
  match a with
  | 0 => show 0 + 1 * (x 0).val = _; omega
  | 1 => show 0 + 1 * (x 1).val = _; omega

/-! ## The written chunk -/

/-- The lookup on a chunk, for any table and index array laid out as the kernel's: the block gathered from the table
    at the chunk's index words, written through the chunk of the result, holds at each entry of the chunk the lookup
    of the whole arrays. -/
theorem chunk_value (tbl : S100000x128.Idx → Elt F .f32) (idx : S16384.Idx → Elt F .i32)
    (hidx : ∀ j : S16384.Idx, (idx j).toNat < 100000)
    (offs : S512.Idx → Elt F .i32) (hoffs : ∀ r : Fin 512, offs (ix1 r) = idx ((irectK L).emb (ix1 r)))
    (hn : S512.numel = S512x128.size gathers_S100000x128_S512x128.axis')
    (hin : ∀ x, (offs x).toNat < S100000x128.size gathers_S100000x128_S512x128.axis)
    (r : Fin 512) (k : Fin 128) :
    SparseCore.gatherPayload gathers_S100000x128_S512x128 tbl (SparseCore.rows offs hn hin) (ix2 r k)
      = Cert.Lookup.rows tbl idx ((orectK L).emb (ix2 r k)) := by
  rw [Cert.GatherRead.gatherPayload_ix2 gathers_S100000x128_S512x128 tbl offs hn hin r k]
  -- the index word of the chunk's row r is the index array's word at the result row of entry (r, k)
  have hrow : (irectK L).emb (ix1 r) = ix1 ⟨((orectK L).emb (ix2 r k) 0).val, idx2_lt0 _⟩ := by
    funext b
    match b with
    | ⟨0, _⟩ => exact Fin.ext ((irectK_emb_val L r).trans (orectK_emb_val0 L r k).symm)
  show tbl _ = tbl _
  refine congrArg tbl ?_
  funext a
  match a with
  | ⟨0, _⟩ =>
    -- the row: a word below 100000 names the row of its own value
    apply Fin.ext
    show (offs (ix1 r)).toNat = (Cert.Lookup.rowAt (idx (ix1 ⟨((orectK L).emb (ix2 r k) 0).val, idx2_lt0 _⟩))).val
    rw [Cert.Lookup.rowAt_val (hidx _), hoffs r, hrow]
  | ⟨1, _⟩ =>
    -- the column
    apply Fin.ext
    show k.val = ((orectK L).emb (ix2 r k) 1).val
    rw [orectK_emb_val1]

/-- Read through the slice by the whole-table rectangle, a table is itself. -/
theorem read_utAllK : (utAllK).view.read (Elt F) (m (utLoc d)) = m (utLoc d) := by
  funext x
  rw [View.read_apply]
  show m (utLoc d) ((Rect.unit (s := S100000x128) ![0, 0] S100000x128.size inb_S100000x128_S100000x128_0_0).emb x) = _
  rw [allRect_emb]
theorem read_itAllK : (itAllK).view.read (Elt F) (m (itLoc d)) = m (itLoc d) := by
  funext x
  rw [View.read_apply]
  show m (itLoc d) ((Rect.unit (s := S100000x128) ![0, 0] S100000x128.size inb_S100000x128_S100000x128_0_0).emb x) = _
  rw [allRect_emb]

/-- THE FIRST RESULT'S CHUNK: what the tile's write-out leaves on its chunk of the first result is the lookup of the
    first table at the first index array. -/
theorem o0_chunk_value (hpre : PreOK m) (fo : Buf (Elt F) (o0Loc d))
    (offs : S512.Idx → Elt F .i32) (hoffs : offs = (uChunkK L).view.read (Elt F) (m (uLoc d)))
    (hn : S512.numel = S512x128.size gathers_S100000x128_S512x128.axis')
    (hin : ∀ x, (offs x).toNat < S100000x128.size gathers_S100000x128_S512x128.axis)
    (pay : S512x128.Idx → Elt F .f32)
    (hpay : pay = SparseCore.gatherPayload gathers_S100000x128_S512x128 ((utAllK).view.read (Elt F) (m (utLoc d))) (SparseCore.rows offs hn hin)) :
    ∀ j ∈ (ochunk (wL L)).set, (o0ChunkK L).view.writes (Elt F) fo [⟨Rect.whole S512x128, pay⟩] j = out0 m d j := by
  intro j hj
  rw [← set_o0ChunkK] at hj
  obtain ⟨x, -, rfl⟩ := Finset.mem_map.mp hj
  obtain ⟨r, k, rfl⟩ : ∃ r k, x = ix2 r k := ⟨_, _, eq_ix2 x⟩
  -- the entry written at the chunk's index (r, k) is the block's entry (r, k)
  have hw : (o0ChunkK L).view.writes (Elt F) fo [⟨Rect.whole S512x128, pay⟩] ((o0ChunkK L).view.emb (ix2 r k)) = pay (ix2 r k) :=
    congrFun (View.read_writes_whole (o0ChunkK L).view fo pay) (ix2 r k)
  rw [hw, hpay, read_utAllK]
  exact chunk_value L (m (utLoc d)) (m (uLoc d)) (hpre d).1 offs (fun r => by rw [hoffs]; rfl) hn hin r k

/-- THE SECOND RESULT'S CHUNK: the same for the second index array, table and result. -/
theorem o1_chunk_value (hpre : PreOK m) (fo : Buf (Elt F) (o1Loc d))
    (offs : S512.Idx → Elt F .i32) (hoffs : offs = (iChunkK L).view.read (Elt F) (m (iLoc d)))
    (hn : S512.numel = S512x128.size gathers_S100000x128_S512x128.axis')
    (hin : ∀ x, (offs x).toNat < S100000x128.size gathers_S100000x128_S512x128.axis)
    (pay : S512x128.Idx → Elt F .f32)
    (hpay : pay = SparseCore.gatherPayload gathers_S100000x128_S512x128 ((itAllK).view.read (Elt F) (m (itLoc d))) (SparseCore.rows offs hn hin)) :
    ∀ j ∈ (ochunk (wL L)).set, (o1ChunkK L).view.writes (Elt F) fo [⟨Rect.whole S512x128, pay⟩] j = out1 m d j := by
  intro j hj
  rw [← set_o1ChunkK] at hj
  obtain ⟨x, -, rfl⟩ := Finset.mem_map.mp hj
  obtain ⟨r, k, rfl⟩ : ∃ r k, x = ix2 r k := ⟨_, _, eq_ix2 x⟩
  have hw : (o1ChunkK L).view.writes (Elt F) fo [⟨Rect.whole S512x128, pay⟩] ((o1ChunkK L).view.emb (ix2 r k)) = pay (ix2 r k) :=
    congrFun (View.read_writes_whole (o1ChunkK L).view fo pay) (ix2 r k)
  rw [hw, hpay, read_itAllK]
  exact chunk_value L (m (itLoc d)) (m (iLoc d)) (hpre d).2 offs (fun r => by rw [hoffs]; rfl) hn hin r k

end Cert.Proof.K

end
-- ==== Proof.BodyK.lean ====
/-
  A tile's task, run: the two index fetches, and for each table the gather of the rows its list names into the row
  buffer and the write of that buffer to the tile's chunk of the result.  Each copy is waited for before a buffer of
  its is touched again — the row buffer is reused only after the first write-back's wait has returned it whole —, so
  the chunks end at the lookup function of the whole arrays.
-/
import proofs.«203863_g44332652429991_cont_8to1_c_1117_11_alg».proof.Proof.TileK
import proofs.«203863_g44332652429991_cont_8to1_c_1117_11_alg».proof.Proof.ChunkK
import Idealize.ShloMosaic.Lib.Exec.Geometry

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uV" => (Memref.whole Cert.Kernel.main_arg0_scv : Memref Cert.Kernel.sig Kind.scVector Space.hbm Cert.Kernel.S16384 EltTy.i32)
local notation "iV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "o0V" => (Memref.whole Cert.Kernel.main_v0_0_scv : Memref Cert.Kernel.sig Kind.scVector Space.hbm Cert.Kernel.S16384x128 EltTy.f32)
local notation "o1V" => (Memref.whole Cert.Kernel.main_v0_1_scv : Memref Cert.Kernel.sig Kind.scVector Space.hbm Cert.Kernel.S16384x128 EltTy.f32)
local notation "suV" => (Memref.whole Cert.Kernel.cc0_scratch0 : Memref Cert.Kernel.sig Kind.scVector Space.vmem Cert.Kernel.S512 EltTy.i32)
local notation "siV" => (Memref.whole Cert.Kernel.cc0_scratch1 : Memref Cert.Kernel.sig Kind.scVector Space.vmem Cert.Kernel.S512 EltTy.i32)
local notation "rV" => (Memref.whole Cert.Kernel.cc0_scratch2 : Memref Cert.Kernel.sig Kind.scVector Space.vmem Cert.Kernel.S512x128 EltTy.f32)

variable (m : (ℓ : Loc nD τ sig) → Buf (Elt F) ℓ) [FloatOps F] (d : Dev nD) (L : grid0.Coords)

set_option maxHeartbeats 4000000 in
/-- The task on tile `(L 0, L 1)` of device `d`: from its chunks of the index arrays and of the results, and a read
    share of each table, to the same with the result chunks holding the lookup. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (uChunkPts m d (wL L) ∗ iChunkPts m d (wL L) ∗ utShPts m d (wL L) ∗ itShPts m d (wL L) ∗ o0ChunkPts d (wL L) (m (o0Loc d)) ∗ o1ChunkPts d (wL L) (m (o1Loc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather2 L uV (Memref.isWhole_whole _) iV (Memref.isWhole_whole _) utV (Memref.isWhole_whole _) itV (Memref.isWhole_whole _)
            o0V (Memref.isWhole_whole _) o1V (Memref.isWhole_whole _)
            suV (Memref.isWhole_whole _) siV (Memref.isWhole_whole _) rV (Memref.isWhole_whole _) cc0_scratch3 cc0_scratch4 cc0_scratch5 cc0_scoped0 cc0_scoped1)
          fun _ => iprop((uChunkPts m d (wL L) ∗ iChunkPts m d (wL L) ∗ utShPts m d (wL L) ∗ itShPts m d (wL L) ∗ o0ChunkPts d (wL L) (out0 m d) ∗ o1ChunkPts d (wL L) (out1 m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather2_eq_skeleton]; unfold cc0_gather2_skel
  rw [(K (F := F)).scopedBufs_V hF d (cV L) (jV L), SparseCore.Cfg.scopedSems0_V (Val := Elt F) d (cV L) (jV L), ownSems0_V, ownBufs_V]
  iintro ⟨#Hlv, -, ⟨Hu, Hi, Hut, Hit, Ho0, Ho1⟩, ⟨⟨%fsu, Hsu⟩, ⟨%fsi, Hsi⟩, ⟨%fr, Hr⟩, Hbufs⟩, ⟨Hs3, Hs4, Hs5, Hc0, Hc1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu' := (Entails.of_eq (pts_uChunkK (F := F) d L _).symm) $$ Hu
  ihave Hi' := (Entails.of_eq (pts_iChunkK (F := F) d L _).symm) $$ Hi
  ihave Ho0' := (Entails.of_eq (pts_o0ChunkK (F := F) d L _).symm) $$ Ho0
  ihave Ho1' := (Entails.of_eq (pts_o1ChunkK (F := F) d L _).symm) $$ Ho1
  ihave Hut' := (Entails.of_eq (pts_utV (F := F) d L _ _).symm) $$ Hut
  ihave Hit' := (Entails.of_eq (pts_itV (F := F) d L _ _).symm) $$ Hit
  ihave Hsu' := (Entails.of_eq (pts_suV (F := F) d L _).symm) $$ Hsu
  ihave Hsi' := (Entails.of_eq (pts_siV (F := F) d L _).symm) $$ Hsi
  ihave Hr' := (Entails.of_eq (pts_rV (F := F) d L _).symm) $$ Hr
  -- the two index fetches and the first one's wait
  sl_exec
  -- the first list's words name rows of the first table: the gather, its wait, the write-back, its wait, the second fetch's wait
  have hinU := u_list_inb m d L hpre fsu (tile_body.sl.dma0 m d L) rfl
  sl_exec
  -- the second list's words name rows of the second table: the gather, its wait, the write-back, its wait
  have hinI := i_list_inb m d L hpre fsi (tile_body.sl.dma0_1 m d L) rfl
  sl_exec
  -- what the two write-backs carried: the row buffer read back is the last gather's payload
  have e0 : tile_body.sl.dma0_2 m d L fsu fr hinU = tile_body.sl.gather0 m d L fsu hinU :=
    View.read_writes_whole (rV).view fr _
  have e1 : tile_body.sl.dma0_3 m d L fsu fsi fr hinU hinI = tile_body.sl.gather0_1 m d L fsi hinI := by
    funext y
    have h := View.read_writes_cons_emb (rV).view fr (Rect.whole _) (tile_body.sl.gather0_1 m d L fsi hinI)
      [⟨Rect.whole _, tile_body.sl.gather0 m d L fsu hinU⟩] y
    rwa [Rect.emb_whole_apply] at h
  have v0 := o0_chunk_value m d L hpre (m (o0Loc d)) _ (View.read_write_univ (v := (suV).view) fsu (tile_body.sl.dma0 m d L)) _ hinU
    (tile_body.sl.gather0 m d L fsu hinU) rfl
  have v1 := o1_chunk_value m d L hpre (m (o1Loc d)) _ (View.read_write_univ (v := (siV).view) fsi (tile_body.sl.dma0_1 m d L)) _ hinI
    (tile_body.sl.gather0_1 m d L fsi hinI) rfl
  rw [e0] ; rw [e1]
  sl_step
  isplitl [Hu' Hi' Hut' Hit' Ho0' Ho1']
  · isplitl [Hu']; · iapply (Entails.of_eq (pts_uChunkK (F := F) d L _)); iexact Hu'
    isplitl [Hi']; · iapply (Entails.of_eq (pts_iChunkK (F := F) d L _)); iexact Hi'
    isplitl [Hut']; · iexact Hut'
    isplitl [Hit']; · iexact Hit'
    isplitl [Ho0']
    · iapply (Entails.of_eq (pointsTo_congr v0)); iapply (Entails.of_eq (pts_o0ChunkK (F := F) d L _)); iexact Ho0'
    · iapply (Entails.of_eq (pointsTo_congr v1)); iapply (Entails.of_eq (pts_o1ChunkK (F := F) d L _)); iexact Ho1'
  isplitl [Hsu' Hsi' Hr' Hbufs]
  · isplitl [Hsu']; · iexists _; iexact Hsu'
    isplitl [Hsi']; · iexists _; iexact Hsi'
    isplitl [Hr']; · iexists _; iexact Hr'
    iexact Hbufs
  isplitl [Hs3 Hs4 Hs5 Hc0 Hc1 Hsems]
  · isplitl [Hs3]; · iexact Hs3
    isplitl [Hs4]; · iexact Hs4
    isplitl [Hs5]; · iexact Hs5
    isplitl [Hc0]; · iexact Hc0
    isplitl [Hc1]; · iexact Hc1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.K

end
-- ==== Proof.LaunchK.lean ====
/-
  The launch of the lookup kernel and the run of the whole program.  The six arrays are dealt to the 32 tiles — each
  index array and each result by its 32 chunks of 512 rows, each table by 32 equal read shares —, two SparseCores of
  sixteen tiles each, tile `(c, s)` taking chunk `c + 2 s`; every tile returns its chunks of the results holding the
  lookup; joined again, the results are the lookup of the whole arrays and the four arguments are as they were.
-/
import proofs.«203863_g44332652429991_cont_8to1_c_1117_11_alg».proof.Proof.BodyK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uV" => (Memref.whole Cert.Kernel.main_arg0_scv : Memref Cert.Kernel.sig Kind.scVector Space.hbm Cert.Kernel.S16384 EltTy.i32)
local notation "iV" => (Memref.whole Cert.Kernel.main_arg1_scv : Memref Cert.Kernel.sig Kind.scVector Space.hbm Cert.Kernel.S16384 EltTy.i32)
local notation "utV" => (Memref.whole Cert.Kernel.main_arg2_scv : Memref Cert.Kernel.sig Kind.scVector Space.hbm Cert.Kernel.S100000x128 EltTy.f32)
local notation "itV" => (Memref.whole Cert.Kernel.main_arg3_scv : Memref Cert.Kernel.sig Kind.scVector Space.hbm Cert.Kernel.S100000x128 EltTy.f32)
local notation "o0V" => (Memref.whole Cert.Kernel.main_v0_0_scv : Memref Cert.Kernel.sig Kind.scVector Space.hbm Cert.Kernel.S16384x128 EltTy.f32)
local notation "o1V" => (Memref.whole Cert.Kernel.main_v0_1_scv : Memref Cert.Kernel.sig Kind.scVector Space.hbm Cert.Kernel.S16384x128 EltTy.f32)
local notation "suV" => (Memref.whole Cert.Kernel.cc0_scratch0 : Memref Cert.Kernel.sig Kind.scVector Space.vmem Cert.Kernel.S512 EltTy.i32)
local notation "siV" => (Memref.whole Cert.Kernel.cc0_scratch1 : Memref Cert.Kernel.sig Kind.scVector Space.vmem Cert.Kernel.S512 EltTy.i32)
local notation "rV" => (Memref.whole Cert.Kernel.cc0_scratch2 : Memref Cert.Kernel.sig Kind.scVector Space.vmem Cert.Kernel.S512x128 EltTy.f32)

variable (m : (ℓ : Loc nD τ sig) → Buf (Elt F) ℓ) (ρ : Dev nD → PrngReg)

/-! ## Tiles and chunks: `(c, s) ↦ c + 2 s` is a bijection of 2 × 16 tiles with 32 chunks -/

def wEquiv : Fin 2 × Fin 16 ≃ Fin 32 where
  toFun p := wOf p.1 p.2
  invFun w := (⟨w.val % 2, Nat.mod_lt _ (by decide)⟩, ⟨w.val / 2, by have := w.isLt; omega⟩)
  left_inv := by
    rintro ⟨c, s⟩
    refine Prod.ext (Fin.ext ?_) (Fin.ext ?_)
    · show (c.val + 2 * s.val) % 2 = c.val
      have := c.isLt; omega
    · show (c.val + 2 * s.val) / 2 = s.val
      have := c.isLt; omega
  right_inv := by
    intro w
    refine Fin.ext ?_
    show w.val % 2 + 2 * (w.val / 2) = w.val
    omega

omit m ρ in
/-- A family over the 32 chunks is the family over the two SparseCores' sixteen tiles. -/
theorem bigSep_tiles (Φ : Fin 32 → sProp 𝕄) :
    bigSep Finset.univ Φ = bigSep Finset.univ fun c : Fin 2 => bigSep Finset.univ fun s : Fin 16 => Φ (wOf c s) := by
  rw [bigSep_univ_equiv wEquiv Φ, bigSep_univ_prod]; rfl

variable [FloatOps F]

/-! ## What the handshakes carry -/

/-- Tile `w`'s holdings: its chunks of the index arrays, its read shares of the tables, its chunks of the results
    at the contents `f0`, `f1`. -/
abbrev tileRes (d : Dev nD) (f0 : Buf (Elt F) (o0Loc d)) (f1 : Buf (Elt F) (o1Loc d)) (w : Fin 32) : sProp 𝕄 :=
  iprop(uChunkPts m d w ∗ iChunkPts m d w ∗ utShPts m d w ∗ itShPts m d w ∗ o0ChunkPts d w f0 ∗ o1ChunkPts d w f1)

/-- The one call hands SparseCore `c` its sixteen tiles' holdings, the results at the launch contents, and gets them
    back with the results at the lookup; each tile its own. -/
def P : (K (F := F)).Pay (nD := nD) (Val := Elt F) (Name := ℕ) (U := UU) where
  st := fun q d c => match q with
    | 0 => bigSep Finset.univ fun s : Fin 16 => tileRes m d (m (o0Loc d)) (m (o1Loc d)) (wOf (Fin.cast nCore_zero c) s)
  dn := fun q d c => match q with
    | 0 => bigSep Finset.univ fun s : Fin 16 => tileRes m d (out0 m d) (out1 m d) (wOf (Fin.cast nCore_zero c) s)
  go := fun q d c i => match q with
    | 0 => tileRes m d (m (o0Loc d)) (m (o1Loc d)) (wOf (Fin.cast nCore_zero c) (Fin.cast nSub_zero i))
  td := fun q d c i => match q with
    | 0 => tileRes m d (out0 m d) (out1 m d) (wOf (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun s : Fin 16 => tileRes m d (m (o0Loc d)) (m (o1Loc d)) (wOf (Fin.cast nCore_zero c) s)))
  dn q d c := match q with
    | 0 => (inferInstance : BI.Storable (upEmb : UEmb _ 𝕄)
      (bigSep Finset.univ fun s : Fin 16 => tileRes m d (out0 m d) (out1 m d) (wOf (Fin.cast nCore_zero c) s)))
  go q d c i := match q with
    | 0 => (inferInstance : BI.Storable (upEmb : UEmb _ 𝕄)
      (tileRes m d (m (o0Loc d)) (m (o1Loc d)) (wOf (Fin.cast nCore_zero c) (Fin.cast nSub_zero i))))
  td q d c i := match q with
    | 0 => (inferInstance : BI.Storable (upEmb : UEmb _ 𝕄)
      (tileRes m d (out0 m d) (out1 m d) (wOf (Fin.cast nCore_zero c) (Fin.cast nSub_zero i))))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather2 (coordsV c s)
          uV (Memref.isWhole_whole _) iV (Memref.isWhole_whole _) utV (Memref.isWhole_whole _) itV (Memref.isWhole_whole _)
          o0V (Memref.isWhole_whole _) o1V (Memref.isWhole_whole _)
          suV (Memref.isWhole_whole _) siV (Memref.isWhole_whole _) rV (Memref.isWhole_whole _)
          cc0_scratch3 cc0_scratch4 cc0_scratch5 cc0_scoped0 cc0_scoped1) ⟨⟩ c s := rfl

omit [FloatOps F] m ρ in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's holdings are its tiles' -/

omit [FloatOps F] m ρ in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileRes m d (m (o0Loc d)) (m (o1Loc d)) (wOf (Fin.cast nCore_zero c) s)) ⊢ |={Set.univ}=> iprop(
      (bigSep Finset.univ fun i : Fin ((K (F := F)).nSub 0) =>
        tileRes m d (m (o0Loc d)) (m (o1Loc d)) (wOf (Fin.cast nCore_zero c) (Fin.cast nSub_zero i)))
      ∗ ((bigSep Finset.univ fun i : Fin ((K (F := F)).nSub 0) =>
          tileRes m d (out0 m d) (out1 m d) (wOf (Fin.cast nCore_zero c) (Fin.cast nSub_zero i)))
          -∗ bigSep Finset.univ fun s : Fin 16 => tileRes m d (out0 m d) (out1 m d) (wOf (Fin.cast nCore_zero c) s)))
  rw [bigSep_tasks (F := F) (fun s => tileRes m d (m (o0Loc d)) (m (o1Loc d)) (wOf (Fin.cast nCore_zero c) s)),
    bigSep_tasks (F := F) (fun s => tileRes m d (out0 m d) (out1 m d) (wOf (Fin.cast nCore_zero c) s))]
  iintro H; imodintro
  isplitl [H]; · iexact H
  iintro H; iexact H

/-! ## The arrays are their 32 chunks; the tables their 32 read shares -/

omit [FloatOps F] m ρ in
theorem ichunks_disjoint : ∀ i ∈ (Finset.univ : Finset (Fin 32)), ∀ j ∈ (Finset.univ : Finset (Fin 32)), i ≠ j → Disjoint (ichunk i).set (ichunk j).set :=
  fun i _ j _ h => Rect.part_disjoint idiv h
omit [FloatOps F] m ρ in
theorem ochunks_disjoint : ∀ i ∈ (Finset.univ : Finset (Fin 32)), ∀ j ∈ (Finset.univ : Finset (Fin 32)), i ≠ j → Disjoint (ochunk i).set (ochunk j).set :=
  fun i _ j _ h => Rect.part_disjoint odiv h

omit [FloatOps F] m ρ in
theorem uPts_chunks (d : Dev nD) (f : Buf (Elt F) (uLoc d)) :
    (uLoc d ↦{fullShare} f : sProp 𝕄) = bigSep Finset.univ fun w : Fin 32 => uLoc d ↦[(ichunk w).set]{fullShare} f := by
  rw [← pointsTo_biUnion Finset.univ (ℓ := uLoc d) (fun w => (ichunk w).set) ichunks_disjoint, Rect.biUnion_part idiv]; try rfl
omit [FloatOps F] m ρ in
theorem iPts_chunks (d : Dev nD) (f : Buf (Elt F) (iLoc d)) :
    (iLoc d ↦{fullShare} f : sProp 𝕄) = bigSep Finset.univ fun w : Fin 32 => iLoc d ↦[(ichunk w).set]{fullShare} f := by
  rw [← pointsTo_biUnion Finset.univ (ℓ := iLoc d) (fun w => (ichunk w).set) ichunks_disjoint, Rect.biUnion_part idiv]; try rfl
omit [FloatOps F] m ρ in
theorem o0Pts_chunks (d : Dev nD) (f : Buf (Elt F) (o0Loc d)) :
    (o0Loc d ↦{fullShare} f : sProp 𝕄) = bigSep Finset.univ fun w : Fin 32 => o0Loc d ↦[(ochunk w).set]{fullShare} f := by
  rw [← pointsTo_biUnion Finset.univ (ℓ := o0Loc d) (fun w => (ochunk w).set) ochunks_disjoint, Rect.biUnion_part odiv]; try rfl
omit [FloatOps F] m ρ in
theorem o1Pts_chunks (d : Dev nD) (f : Buf (Elt F) (o1Loc d)) :
    (o1Loc d ↦{fullShare} f : sProp 𝕄) = bigSep Finset.univ fun w : Fin 32 => o1Loc d ↦[(ochunk w).set]{fullShare} f := by
  rw [← pointsTo_biUnion Finset.univ (ℓ := o1Loc d) (fun w => (ochunk w).set) ochunks_disjoint, Rect.biUnion_part odiv]; try rfl
omit [FloatOps F] m ρ in
theorem utPts_shares (d : Dev nD) (f : Buf (Elt F) (utLoc d)) :
    (utLoc d ↦{fullShare} f : sProp 𝕄) = bigSep Finset.univ fun w : Fin 32 => utLoc d ↦{tq w} f :=
  pointsTo_piecesOf Finset.univ f (by decide) fullShare
omit [FloatOps F] m ρ in
theorem itPts_shares (d : Dev nD) (f : Buf (Elt F) (itLoc d)) :
    (itLoc d ↦{fullShare} f : sProp 𝕄) = bigSep Finset.univ fun w : Fin 32 => itLoc d ↦{tq w} f :=
  pointsTo_piecesOf Finset.univ f (by decide) fullShare

/-- The six arrays, the results at `f0` and `f1`, are the holdings of the two SparseCores' sixteen tiles. -/
theorem whole_tiles (d : Dev nD) (f0 : Buf (Elt F) (o0Loc d)) (f1 : Buf (Elt F) (o1Loc d)) :
    (iprop((uLoc d ↦{fullShare} m (uLoc d)) ∗ (iLoc d ↦{fullShare} m (iLoc d)) ∗ (utLoc d ↦{fullShare} m (utLoc d))
        ∗ (itLoc d ↦{fullShare} m (itLoc d)) ∗ (o0Loc d ↦{fullShare} f0) ∗ (o1Loc d ↦{fullShare} f1)) : sProp 𝕄)
      = bigSep Finset.univ fun c : Fin 2 => bigSep Finset.univ fun s : Fin 16 => tileRes m d f0 f1 (wOf c s) := by
  rw [← bigSep_tiles (F := F) (fun w => tileRes m d f0 f1 w)]
  unfold tileRes uChunkPts iChunkPts utShPts itShPts o0ChunkPts o1ChunkPts
  rw [bigSep_sep', bigSep_sep', bigSep_sep', bigSep_sep', bigSep_sep',
    ← uPts_chunks, ← iPts_chunks, ← utPts_shares, ← itPts_shares, ← o0Pts_chunks, ← o1Pts_chunks]

/-! ## The launch element of the ghost state -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] m ρ in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (utLoc d ↦{fullShare} W main_arg2)
      ∗ (itLoc d ↦{fullShare} W main_arg3) ∗ (o0Loc d ↦{fullShare} W main_v0_0) ∗ o1Loc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => tileRes m d (m (o0Loc d)) (m (o1Loc d)) (wOf c s) :=
  show (bigSep Finset.univ fun c : Fin 2 => bigSep Finset.univ fun s : Fin 16 => tileRes m d (m (o0Loc d)) (m (o1Loc d)) (wOf (Fin.cast nCore_zero c) s)) = _ from
    bigSep_congr fun c _ => bigSep_congr fun s _ => congrArg (fun c' => tileRes m d (m (o0Loc d)) (m (o1Loc d)) (wOf c' s)) (Fin.ext rfl)
theorem dn0_eq (d : Dev nD) : (bigSep Finset.univ fun c : Fin ((K (F := F)).nCore 0) => (P m).dn 0 d c)
    = bigSep Finset.univ fun c : Fin 2 => bigSep Finset.univ fun s : Fin 16 => tileRes m d (out0 m d) (out1 m d) (wOf c s) :=
  show (bigSep Finset.univ fun c : Fin 2 => bigSep Finset.univ fun s : Fin 16 => tileRes m d (out0 m d) (out1 m d) (wOf (Fin.cast nCore_zero c) s)) = _ from
    bigSep_congr fun c _ => bigSep_congr fun s _ => congrArg (fun c' => tileRes m d (out0 m d) (out1 m d) (wOf c' s)) (Fin.ext rfl)

/-- What @main ends holding: the four arguments as they were, the two results at the lookup. -/
abbrev FIN (d : Dev nD) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ (o0Loc d ↦{fullShare} out0 m d) ∗ (o1Loc d ↦{fullShare} out1 m d))

/-- @main on device `d`'s TensorCore: the one call, from the six arrays dealt to the tiles to the six arrays joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Hall, -, -⟩, -⟩
  iapply ((K (F := F)).wp_run (D (F := F)) 𝒱 (EH := EH) (P := P m) κ d 0) $$ [Hst Hall]
  isplitr; · iexact Hctx
  isplitl [Hst]; · iexact Hst
  isplitl [Hall]
  · rw [st0_eq, ← whole_tiles]; iexact Hall
  iintro ⟨Hst, Hdn⟩
  ihave Hdn' := (Entails.of_eq ((dn0_eq m d).trans (whole_tiles m d (out0 m d) (out1 m d)).symm)) $$ Hdn
  imodintro
  isplitl [Hst]; · iexact Hst
  iexact Hdn'

/-! ## The final memory -/

def fq (d : Dev nD) (s' : Phys nD τ sig (Elt F)) : Prop :=
  s'.mem.mem (o0Loc d) = out0 m d ∧ s'.mem.mem (o1Loc d) = out1 m d ∧ s'.mem.mem (uLoc d) = m (uLoc d) ∧ s'.mem.mem (iLoc d) = m (iLoc d)
    ∧ s'.mem.mem (utLoc d) = m (utLoc d) ∧ s'.mem.mem (itLoc d) = m (itLoc d)

omit [FloatOps F] m ρ in
/-- A buffer held whole at `f` is `f` in the memory. -/
theorem agree_whole (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Hu, Hi, Hut, Hit, Ho0, Ho1⟩, HSI⟩
  ihave H := (agree_whole (F := F) (uLoc d) _ s') $$ [HSI Hu]; · isplitl [HSI] <;> iassumption
  icases H with ⟨%h1, HSI⟩
  ihave H := (agree_whole (F := F) (iLoc d) _ s') $$ [HSI Hi]; · isplitl [HSI] <;> iassumption
  icases H with ⟨%h2, HSI⟩
  ihave H := (agree_whole (F := F) (utLoc d) _ s') $$ [HSI Hut]; · isplitl [HSI] <;> iassumption
  icases H with ⟨%h3, HSI⟩
  ihave H := (agree_whole (F := F) (itLoc d) _ s') $$ [HSI Hit]; · isplitl [HSI] <;> iassumption
  icases H with ⟨%h4, HSI⟩
  ihave H := (agree_whole (F := F) (o0Loc d) _ s') $$ [HSI Ho0]; · isplitl [HSI] <;> iassumption
  icases H with ⟨%h5, HSI⟩
  ihave H := (agree_whole (F := F) (o1Loc d) _ s') $$ [HSI Ho1]; · isplitl [HSI] <;> iassumption
  icases H with ⟨%h6, -⟩
  ipureintro; exact ⟨h5, h6, h1, h2, h3, h4⟩

/-! ## The program's run -/

/-- Every result at the lookup of the launch arrays, every argument as it was. -/
def QC : PUnit × MemSt nD τ sig (Elt F) → Prop := fun r => ∀ c : Dev nD,
  r.2.mem (o0Loc c) = out0 m c ∧ r.2.mem (o1Loc c) = out1 m c ∧ r.2.mem (uLoc c) = m (uLoc c) ∧ r.2.mem (iLoc c) = m (iLoc c)
    ∧ r.2.mem (utLoc c) = m (utLoc c) ∧ r.2.mem (itLoc c) = m (itLoc c)

/-- Every weakly fair execution of the program — @main on the TensorCore, the sequencers, the 32 tiles — from a memory
    whose index words all name rows ends, nothing faulting, at the lookup. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.K

end
-- ==== Proof.TileKI.lean ====
/-
  One tile's task of the lookup kernel, at a symbolic place.  The kernel runs on the two SparseCores' sixteen tiles
  each; tile `(c, s)` owns chunk `c + 2 s` of the 32 chunks of 512 consecutive rows: it fetches its 512 index words of
  each index array, gathers the rows of the first table they name into its row buffer, writes the buffer out as its
  chunk of the first result, and does the same with the second index array, table and result.  Every copy is waited
  for before its buffers are touched again, so a chunk of a result ends holding, at row `r` and column `k`, the
  table's entry at row `idx r` and column `k`: the lookup function of the whole arrays, read on the chunk.
-/
import proofs.«203863_g44332652429991_cont_8to1_c_1117_11_alg».proof.Proof.Gen.KernelIdeal
import proofs.«203863_g44332652429991_cont_8to1_c_1117_11_alg».proof.Proof.Gen.KernelIdeal.Skeleton
import proofs.«203863_g44332652429991_cont_8to1_c_1117_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev o0Loc (d : Dev nD) : Loc nD τ sig := (SparseCore.T d).loc main_v0_0
abbrev o1Loc (d : Dev nD) : Loc nD τ sig := (SparseCore.T d).loc main_v0_1

local notation "uV" => (Memref.whole Cert.KernelIdeal.main_arg0_scv : Memref Cert.KernelIdeal.sig Kind.scVector Space.hbm Cert.KernelIdeal.S16384 EltTy.i32)
local notation "iV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "o0V" => (Memref.whole Cert.KernelIdeal.main_v0_0_scv : Memref Cert.KernelIdeal.sig Kind.scVector Space.hbm Cert.KernelIdeal.S16384x128 EltTy.f32)
local notation "o1V" => (Memref.whole Cert.KernelIdeal.main_v0_1_scv : Memref Cert.KernelIdeal.sig Kind.scVector Space.hbm Cert.KernelIdeal.S16384x128 EltTy.f32)
local notation "suV" => (Memref.whole Cert.KernelIdeal.cc0_scratch0 : Memref Cert.KernelIdeal.sig Kind.scVector Space.vmem Cert.KernelIdeal.S512 EltTy.i32)
local notation "siV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)

/-! ## The 32 chunks of 512 rows -/

theorem idiv : 32 ∣ S16384.size 0 := ⟨512, rfl⟩
theorem odiv : 32 ∣ S16384x128.size 0 := ⟨512, rfl⟩
abbrev ichunk (w : Fin 32) : Rect S16384 := Rect.part (s := S16384) (a₀ := 0) idiv w
abbrev ochunk (w : Fin 32) : Rect S16384x128 := Rect.part (s := S16384x128) (a₀ := 0) odiv w
abbrev iChunkSet (w : Fin 32) : Finset S16384.Idx := ((uV).view.slice (ichunk w)).set
abbrev oChunkSet (w : Fin 32) : Finset S16384x128.Idx := ((o0V).view.slice (ochunk w)).set

/-- The chunk of tile `(c, s)`: number `c + 2 s`. -/
def wOf (c : Fin 2) (s : Fin 16) : Fin 32 := ⟨c.val + 2 * s.val, by omega⟩

/-- Tile `w`'s read share of a table: one of 32 equal pieces of the full share. -/
abbrev tq (w : Fin 32) : PosShare TreeShare := pieceOf fullShare 32 (by decide) w

variable [FloatOps F]

/-! ## What a tile is handed and hands back -/

abbrev uChunkPts (d : Dev nD) (w : Fin 32) : sProp 𝕄 := uLoc d ↦[(ichunk w).set]{fullShare} m (uLoc d)
abbrev iChunkPts (d : Dev nD) (w : Fin 32) : sProp 𝕄 := iLoc d ↦[(ichunk w).set]{fullShare} m (iLoc d)
abbrev utShPts (d : Dev nD) (w : Fin 32) : sProp 𝕄 := utLoc d ↦{tq w} m (utLoc d)
abbrev itShPts (d : Dev nD) (w : Fin 32) : sProp 𝕄 := itLoc d ↦{tq w} m (itLoc d)
abbrev o0ChunkPts (d : Dev nD) (w : Fin 32) (f : Buf (Elt F) (o0Loc d)) : sProp 𝕄 := o0Loc d ↦[(ochunk w).set]{fullShare} f
abbrev o1ChunkPts (d : Dev nD) (w : Fin 32) (f : Buf (Elt F) (o1Loc d)) : sProp 𝕄 := o1Loc d ↦[(ochunk w).set]{fullShare} f

/-- The first result as the lookup says it: rows of the first table at the first index array. -/
def out0 (d : Dev nD) : Buf (Elt F) (o0Loc d) := Cert.Lookup.rows (m (utLoc d)) (m (uLoc d))
/-- The second result: rows of the second table at the second index array. -/
def out1 (d : Dev nD) : Buf (Elt F) (o1Loc d) := Cert.Lookup.rows (m (itLoc d)) (m (iLoc d))

/-- What the proof asks of the launch memory: every index word names a row of its table. -/
def PreOK : Prop := ∀ d : Dev nD, (∀ j : S16384.Idx, (m (uLoc d) j).toNat < 100000) ∧ (∀ j : S16384.Idx, (m (iLoc d) j).toNat < 100000)

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The chunk of the tile at grid point `L`. -/
abbrev wL (L : grid0.Coords) : Fin 32 := ⟨(L 0).val + 2 * (L 1).val, by
  have h0 : (L 0).val < 2 := (L 0).isLt
  have h1 : (L 1).val < 16 := (L 1).isLt
  omega⟩

abbrev irectK (L : grid0.Coords) : Rect S16384 := Rect.unit (s := S16384) (k0_off1 L) S512.size (k0_off1_inb L)
abbrev orectK (L : grid0.Coords) : Rect S16384x128 := Rect.unit (s := S16384x128) (k0_off2 L) S512x128.size (k0_off2_inb L)
/-- The tile's chunks of the index arrays and of the results, and the whole tables, as the task addresses them. -/
abbrev uChunkK (L : grid0.Coords) : Memref sig .scVector .hbm S512 .i32 := (uV).slice (irectK L) (fun _ => rfl)
abbrev iChunkK (L : grid0.Coords) : Memref sig .scVector .hbm S512 .i32 := (iV).slice (irectK L) (fun _ => rfl)
abbrev o0ChunkK (L : grid0.Coords) : Memref sig .scVector .hbm S512x128 .f32 := (o0V).slice (orectK L) (fun _ => rfl)
abbrev o1ChunkK (L : grid0.Coords) : Memref sig .scVector .hbm S512x128 .f32 := (o1V).slice (orectK L) (fun _ => rfl)
abbrev utAllK : Memref sig .scVector .hbm S100000x128 .f32 := (utV).slice (Rect.unit (s := S100000x128) ![0, 0] S100000x128.size inb_S100000x128_S100000x128_0_0) (fun _ => rfl)
abbrev itAllK : Memref sig .scVector .hbm S100000x128 .f32 := (itV).slice (Rect.unit (s := S100000x128) ![0, 0] S100000x128.size inb_S100000x128_S100000x128_0_0) (fun _ => rfl)

omit [FloatOps F] in
theorem irectK_eq : irectK L = ichunk (wL L) := by
  unfold irectK ichunk Rect.part Rect.block
  congr 1 <;> funext a
  · rw [k0_off1_eq]
    match a with
    | 0 => simp [Shape.partIx, Shape.partSize]; omega
  · match a with
    | 0 => simp [Shape.partSize]
omit [FloatOps F] in
theorem orectK_eq : orectK L = ochunk (wL L) := by
  unfold orectK ochunk Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_uChunkK : (uChunkK L).view.set = (ichunk (wL L)).set := by
  show ((uV).view.slice (irectK L)).set = _
  rw [irectK_eq L, View.set_slice]; exact Finset.map_refl
omit [FloatOps F] in
theorem set_iChunkK : (iChunkK L).view.set = (ichunk (wL L)).set := by
  show ((iV).view.slice (irectK L)).set = _
  rw [irectK_eq L, View.set_slice]; exact Finset.map_refl
omit [FloatOps F] in
theorem set_o0ChunkK : (o0ChunkK L).view.set = (ochunk (wL L)).set := by
  show ((o0V).view.slice (orectK L)).set = _
  rw [orectK_eq L, View.set_slice]; exact Finset.map_refl
omit [FloatOps F] in
theorem set_o1ChunkK : (o1ChunkK L).view.set = (ochunk (wL L)).set := by
  show ((o1V).view.slice (orectK L)).set = _
  rw [orectK_eq L, View.set_slice]; exact Finset.map_refl

omit [FloatOps F] in
theorem pts_uChunkK (f : Buf (Elt F) (uLoc d)) :
    ((uChunkK L).view.loc (V d (cV L) (jV L)) ↦[(uChunkK L).view.set]{fullShare} f : sProp 𝕄) = uLoc d ↦[(ichunk (wL L)).set]{fullShare} f := by
  rw [set_uChunkK]
omit [FloatOps F] in
theorem pts_iChunkK (f : Buf (Elt F) (iLoc d)) :
    ((iChunkK L).view.loc (V d (cV L) (jV L)) ↦[(iChunkK L).view.set]{fullShare} f : sProp 𝕄) = iLoc d ↦[(ichunk (wL L)).set]{fullShare} f := by
  rw [set_iChunkK]
omit [FloatOps F] in
theorem pts_o0ChunkK (f : Buf (Elt F) (o0Loc d)) :
    ((o0ChunkK L).view.loc (V d (cV L) (jV L)) ↦[(o0ChunkK L).view.set]{fullShare} f : sProp 𝕄) = o0Loc d ↦[(ochunk (wL L)).set]{fullShare} f := by
  rw [set_o0ChunkK]
omit [FloatOps F] in
theorem pts_o1ChunkK (f : Buf (Elt F) (o1Loc d)) :
    ((o1ChunkK L).view.loc (V d (cV L) (jV L)) ↦[(o1ChunkK L).view.set]{fullShare} f : sProp 𝕄) = o1Loc d ↦[(ochunk (wL L)).set]{fullShare} f := by
  rw [set_o1ChunkK]
omit [FloatOps F] in
theorem pts_utV (q : PosShare TreeShare) (f : Buf (Elt F) (utLoc d)) :
    ((utV).view.loc (V d (cV L) (jV L)) ↦{q} f : sProp 𝕄) = utLoc d ↦{q} f := rfl
omit [FloatOps F] in
theorem pts_itV (q : PosShare TreeShare) (f : Buf (Elt F) (itLoc d)) :
    ((itV).view.loc (V d (cV L) (jV L)) ↦{q} f : sProp 𝕄) = itLoc d ↦{q} f := rfl
omit [FloatOps F] in
theorem pts_suV (f : Buf (Elt F) ((V d (cV L) (jV L)).loc cc0_scratch0)) :
    ((suV).view.loc (V d (cV L) (jV L)) ↦{fullShare} f : sProp 𝕄) = (V d (cV L) (jV L)).loc cc0_scratch0 ↦{fullShare} f := rfl
omit [FloatOps F] in
theorem pts_siV (f : Buf (Elt F) ((V d (cV L) (jV L)).loc cc0_scratch1)) :
    ((siV).view.loc (V d (cV L) (jV L)) ↦{fullShare} f : sProp 𝕄) = (V d (cV L) (jV L)).loc cc0_scratch1 ↦{fullShare} f := rfl
omit [FloatOps F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The five DMA cells a tile's copies complete on. -/
abbrev cell (k : DmaSems sig S_) (d : Dev nD) (c : Fin τ.nSC) (i : Fin τ.nSub) : GSem nD τ sig := (V d c i, .dma k.sem)

omit [FloatOps F] in
theorem ownSems0_V :
    (ownSems0 (V d (cV L) (jV L)) : sProp 𝕄)
      = iprop(semVal (cell cc0_scratch3 d (cV L) (jV L)) 0 ∗ semVal (cell cc0_scratch4 d (cV L) (jV L)) 0 ∗ semVal (cell cc0_scratch5 d (cV L) (jV L)) 0
          ∗ semVal (cell cc0_scoped0 d (cV L) (jV L)) 0 ∗ semVal (cell cc0_scoped1 d (cV L) (jV L)) 0
          ∗ bigSep ((((((ownCells (V d (cV L) (jV L))).erase (cell cc0_scratch3 d (cV L) (jV L))).erase (cell cc0_scratch4 d (cV L) (jV L))).erase
              (cell cc0_scratch5 d (cV L) (jV L))).erase (cell cc0_scoped0 d (cV L) (jV L))).erase (cell cc0_scoped1 d (cV L) (jV L))) fun g => semVal g 0) := by
  unfold SparseCore.Cfg.ownSems0
  have hm : ∀ k : DmaSems sig S_, (SemLoc.dma k.sem : SemLoc sig).isScoped .scVector = true →
      cell k d (cV L) (jV L) ∈ ownCells (V d (cV L) (jV L)) := fun k hk => (mem_ownCells (g := cell k d (cV L) (jV L))).mpr ⟨rfl, hk⟩
  have hne : ∀ k k' : DmaSems sig S_, k.sem ≠ k'.sem → cell k d (cV L) (jV L) ≠ cell k' d (cV L) (jV L) := fun k k' h e => h (by
    have := congrArg Prod.snd e; simpa [cell] using this)
  rw [SparseCore.bigSep_erase' (hm cc0_scratch3 (by decide)),
    SparseCore.bigSep_erase' (Finset.mem_erase.mpr ⟨hne _ _ (by decide), hm cc0_scratch4 (by decide)⟩),
    SparseCore.bigSep_erase' (Finset.mem_erase.mpr ⟨hne _ _ (by decide), Finset.mem_erase.mpr ⟨hne _ _ (by decide), hm cc0_scratch5 (by decide)⟩⟩),
    SparseCore.bigSep_erase' (Finset.mem_erase.mpr ⟨hne _ _ (by decide), Finset.mem_erase.mpr ⟨hne _ _ (by decide), Finset.mem_erase.mpr ⟨hne _ _ (by decide), hm cc0_scoped0 (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped1 (by decide)⟩⟩⟩⟩)]

omit [FloatOps F] in
/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have hne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne _ _ (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := (Proc.scVector (cV L) (jV L)).devRef cc0_scratch2) rfl⟩⟩)]

/-- What the first index fetch leaves in its list is the tile's chunk of the first index array, and every word of that
    array names a row of the table: so does every word of the list. -/
theorem u_list_inb (hpre : PreOK m) (fs : Buf (Elt F) ((V d (cV L) (jV L)).loc cc0_scratch0)) (pay : S512.Idx → Elt F .i32)
    (hpay : pay = (uChunkK L).view.read (Elt F) (m (uLoc d))) (x : S512.Idx) :
    ((suV).view.read (Elt F) (View.write (Elt F) (suV).view fs pay Finset.univ) x).toNat < S100000x128.size gathers_S100000x128_S512x128.axis := by
  rw [View.read_write_univ, hpay, View.read_apply]
  exact (hpre d).1 _

/-- The same for the second index fetch and the second index array. -/
theorem i_list_inb (hpre : PreOK m) (fs : Buf (Elt F) ((V d (cV L) (jV L)).loc cc0_scratch1)) (pay : S512.Idx → Elt F .i32)
    (hpay : pay = (iChunkK L).view.read (Elt F) (m (iLoc d))) (x : S512.Idx) :
    ((siV).view.read (Elt F) (View.write (Elt F) (siV).view fs pay Finset.univ) x).toNat < S100000x128.size gathers_S100000x128_S512x128.axis := by
  rw [View.read_write_univ, hpay, View.read_apply]
  exact (hpre d).2 _

end Tile

end Cert.Proof.KI

end
-- ==== Proof.ChunkKI.lean ====
/-
  The lookup, read on one tile's chunk.  A tile fetches the 512 index words of its chunk, gathers the table rows they
  name into a block of 512 rows of 128 entries, and writes the block out as its chunk of the result.  Entry (r, k) of the
  written chunk is therefore the table's entry (w, k), where w is word r of the tile's chunk of the index array, read
  unsigned; the chunk starts at row 1024 s + 512 c of the index array and of the result alike, so that word is the index
  array's word at the result row the entry lies in, and, every index word being below 100000, the table row it names is
  the row the lookup function names: the written chunk is the lookup of the whole arrays on the chunk's entries.
-/
import proofs.«203863_g44332652429991_cont_8to1_c_1117_11_alg».proof.Proof.TileKI
import proofs.«203863_g44332652429991_cont_8to1_c_1117_11_alg».proof.Proof.GatherRead
import Idealize.ShloMosaic.Lib.Exec.Geometry

noncomputable section

namespace Cert.Proof.KI

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ) [FloatOps F] (d : Dev nD) (L : grid0.Coords)

/-! ## The embeddings, by coordinates -/

omit [FloatOps F] in
/-- Row r of the tile's chunk of an index array is row 1024 s + 512 c + r of the array. -/
theorem irectK_emb_val (r : Fin 512) : ((irectK L).emb (ix1 r) 0).val = 1024 * (L 1).val + 512 * (L 0).val + r.val := by
  rw [Rect.emb_apply]
  show k0_off1 L 0 + 1 * r.val = _
  rw [k0_off1_eq]
  show (1024 * (L 1).val + 512 * (L 0).val) + 1 * r.val = _
  omega

omit [FloatOps F] in
/-- Entry (r, k) of the tile's chunk of a result lies in row 1024 s + 512 c + r of the result … -/
theorem orectK_emb_val0 (r : Fin 512) (k : Fin 128) :
    ((orectK L).emb (ix2 r k) 0).val = 1024 * (L 1).val + 512 * (L 0).val + r.val := by
  rw [Rect.emb_apply]
  show k0_off2 L 0 + 1 * r.val = _
  rw [k0_off2_eq]
  show (1024 * (L 1).val + 512 * (L 0).val) + 1 * r.val = _
  omega

omit [FloatOps F] in
/-- … and in column k. -/
theorem orectK_emb_val1 (r : Fin 512) (k : Fin 128) : ((orectK L).emb (ix2 r k) 1).val = k.val := by
  rw [Rect.emb_apply]
  show k0_off2 L 1 + 1 * k.val = _
  rw [k0_off2_eq]
  show 0 + 1 * k.val = _
  omega

omit [FloatOps F] in
/-- The rectangle of a whole table, offsets 0 and the table's own extents, places every index at itself. -/
theorem allRect_emb (x : S100000x128.Idx) :
    (Rect.unit (s := S100000x128) ![0, 0] S100000x128.size inb_S100000x128_S100000x128_0_0).emb x = x := by
  funext a
  apply Fin.ext
  rw [Rect.emb_apply]
  match a with
  | 0 => show 0 + 1 * (x 0).val = _; omega
  | 1 => show 0 + 1 * (x 1).val = _; omega

/-! ## The written chunk -/

/-- The lookup on a chunk, for any table and index array laid out as the kernel's: the block gathered from the table
    at the chunk's index words, written through the chunk of the result, holds at each entry of the chunk the lookup
    of the whole arrays. -/
theorem chunk_value (tbl : S100000x128.Idx → Elt F .f32) (idx : S16384.Idx → Elt F .i32)
    (hidx : ∀ j : S16384.Idx, (idx j).toNat < 100000)
    (offs : S512.Idx → Elt F .i32) (hoffs : ∀ r : Fin 512, offs (ix1 r) = idx ((irectK L).emb (ix1 r)))
    (hn : S512.numel = S512x128.size gathers_S100000x128_S512x128.axis')
    (hin : ∀ x, (offs x).toNat < S100000x128.size gathers_S100000x128_S512x128.axis)
    (r : Fin 512) (k : Fin 128) :
    SparseCore.gatherPayload gathers_S100000x128_S512x128 tbl (SparseCore.rows offs hn hin) (ix2 r k)
      = Cert.Lookup.rows tbl idx ((orectK L).emb (ix2 r k)) := by
  rw [Cert.GatherRead.gatherPayload_ix2 gathers_S100000x128_S512x128 tbl offs hn hin r k]
  -- the index word of the chunk's row r is the index array's word at the result row of entry (r, k)
  have hrow : (irectK L).emb (ix1 r) = ix1 ⟨((orectK L).emb (ix2 r k) 0).val, idx2_lt0 _⟩ := by
    funext b
    match b with
    | ⟨0, _⟩ => exact Fin.ext ((irectK_emb_val L r).trans (orectK_emb_val0 L r k).symm)
  show tbl _ = tbl _
  refine congrArg tbl ?_
  funext a
  match a with
  | ⟨0, _⟩ =>
    -- the row: a word below 100000 names the row of its own value
    apply Fin.ext
    show (offs (ix1 r)).toNat = (Cert.Lookup.rowAt (idx (ix1 ⟨((orectK L).emb (ix2 r k) 0).val, idx2_lt0 _⟩))).val
    rw [Cert.Lookup.rowAt_val (hidx _), hoffs r, hrow]
  | ⟨1, _⟩ =>
    -- the column
    apply Fin.ext
    show k.val = ((orectK L).emb (ix2 r k) 1).val
    rw [orectK_emb_val1]

/-- Read through the slice by the whole-table rectangle, a table is itself. -/
theorem read_utAllK : (utAllK).view.read (Elt F) (m (utLoc d)) = m (utLoc d) := by
  funext x
  rw [View.read_apply]
  show m (utLoc d) ((Rect.unit (s := S100000x128) ![0, 0] S100000x128.size inb_S100000x128_S100000x128_0_0).emb x) = _
  rw [allRect_emb]
theorem read_itAllK : (itAllK).view.read (Elt F) (m (itLoc d)) = m (itLoc d) := by
  funext x
  rw [View.read_apply]
  show m (itLoc d) ((Rect.unit (s := S100000x128) ![0, 0] S100000x128.size inb_S100000x128_S100000x128_0_0).emb x) = _
  rw [allRect_emb]

/-- THE FIRST RESULT'S CHUNK: what the tile's write-out leaves on its chunk of the first result is the lookup of the
    first table at the first index array. -/
theorem o0_chunk_value (hpre : PreOK m) (fo : Buf (Elt F) (o0Loc d))
    (offs : S512.Idx → Elt F .i32) (hoffs : offs = (uChunkK L).view.read (Elt F) (m (uLoc d)))
    (hn : S512.numel = S512x128.size gathers_S100000x128_S512x128.axis')
    (hin : ∀ x, (offs x).toNat < S100000x128.size gathers_S100000x128_S512x128.axis)
    (pay : S512x128.Idx → Elt F .f32)
    (hpay : pay = SparseCore.gatherPayload gathers_S100000x128_S512x128 ((utAllK).view.read (Elt F) (m (utLoc d))) (SparseCore.rows offs hn hin)) :
    ∀ j ∈ (ochunk (wL L)).set, (o0ChunkK L).view.writes (Elt F) fo [⟨Rect.whole S512x128, pay⟩] j = out0 m d j := by
  intro j hj
  rw [← set_o0ChunkK] at hj
  obtain ⟨x, -, rfl⟩ := Finset.mem_map.mp hj
  obtain ⟨r, k, rfl⟩ : ∃ r k, x = ix2 r k := ⟨_, _, eq_ix2 x⟩
  -- the entry written at the chunk's index (r, k) is the block's entry (r, k)
  have hw : (o0ChunkK L).view.writes (Elt F) fo [⟨Rect.whole S512x128, pay⟩] ((o0ChunkK L).view.emb (ix2 r k)) = pay (ix2 r k) :=
    congrFun (View.read_writes_whole (o0ChunkK L).view fo pay) (ix2 r k)
  rw [hw, hpay, read_utAllK]
  exact chunk_value L (m (utLoc d)) (m (uLoc d)) (hpre d).1 offs (fun r => by rw [hoffs]; rfl) hn hin r k

/-- THE SECOND RESULT'S CHUNK: the same for the second index array, table and result. -/
theorem o1_chunk_value (hpre : PreOK m) (fo : Buf (Elt F) (o1Loc d))
    (offs : S512.Idx → Elt F .i32) (hoffs : offs = (iChunkK L).view.read (Elt F) (m (iLoc d)))
    (hn : S512.numel = S512x128.size gathers_S100000x128_S512x128.axis')
    (hin : ∀ x, (offs x).toNat < S100000x128.size gathers_S100000x128_S512x128.axis)
    (pay : S512x128.Idx → Elt F .f32)
    (hpay : pay = SparseCore.gatherPayload gathers_S100000x128_S512x128 ((itAllK).view.read (Elt F) (m (itLoc d))) (SparseCore.rows offs hn hin)) :
    ∀ j ∈ (ochunk (wL L)).set, (o1ChunkK L).view.writes (Elt F) fo [⟨Rect.whole S512x128, pay⟩] j = out1 m d j := by
  intro j hj
  rw [← set_o1ChunkK] at hj
  obtain ⟨x, -, rfl⟩ := Finset.mem_map.mp hj
  obtain ⟨r, k, rfl⟩ : ∃ r k, x = ix2 r k := ⟨_, _, eq_ix2 x⟩
  have hw : (o1ChunkK L).view.writes (Elt F) fo [⟨Rect.whole S512x128, pay⟩] ((o1ChunkK L).view.emb (ix2 r k)) = pay (ix2 r k) :=
    congrFun (View.read_writes_whole (o1ChunkK L).view fo pay) (ix2 r k)
  rw [hw, hpay, read_itAllK]
  exact chunk_value L (m (itLoc d)) (m (iLoc d)) (hpre d).2 offs (fun r => by rw [hoffs]; rfl) hn hin r k

end Cert.Proof.KI

end
-- ==== Proof.BodyKI.lean ====
/-
  A tile's task, run: the two index fetches, and for each table the gather of the rows its list names into the row
  buffer and the write of that buffer to the tile's chunk of the result.  Each copy is waited for before a buffer of
  its is touched again — the row buffer is reused only after the first write-back's wait has returned it whole —, so
  the chunks end at the lookup function of the whole arrays.
-/
import proofs.«203863_g44332652429991_cont_8to1_c_1117_11_alg».proof.Proof.TileKI
import proofs.«203863_g44332652429991_cont_8to1_c_1117_11_alg».proof.Proof.ChunkKI
import Idealize.ShloMosaic.Lib.Exec.Geometry

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uV" => (Memref.whole Cert.KernelIdeal.main_arg0_scv : Memref Cert.KernelIdeal.sig Kind.scVector Space.hbm Cert.KernelIdeal.S16384 EltTy.i32)
local notation "iV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "o0V" => (Memref.whole Cert.KernelIdeal.main_v0_0_scv : Memref Cert.KernelIdeal.sig Kind.scVector Space.hbm Cert.KernelIdeal.S16384x128 EltTy.f32)
local notation "o1V" => (Memref.whole Cert.KernelIdeal.main_v0_1_scv : Memref Cert.KernelIdeal.sig Kind.scVector Space.hbm Cert.KernelIdeal.S16384x128 EltTy.f32)
local notation "suV" => (Memref.whole Cert.KernelIdeal.cc0_scratch0 : Memref Cert.KernelIdeal.sig Kind.scVector Space.vmem Cert.KernelIdeal.S512 EltTy.i32)
local notation "siV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)

variable (m : (ℓ : Loc nD τ sig) → Buf (Elt F) ℓ) [FloatOps F] (d : Dev nD) (L : grid0.Coords)

set_option maxHeartbeats 4000000 in
/-- The task on tile `(L 0, L 1)` of device `d`: from its chunks of the index arrays and of the results, and a read
    share of each table, to the same with the result chunks holding the lookup. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (uChunkPts m d (wL L) ∗ iChunkPts m d (wL L) ∗ utShPts m d (wL L) ∗ itShPts m d (wL L) ∗ o0ChunkPts d (wL L) (m (o0Loc d)) ∗ o1ChunkPts d (wL L) (m (o1Loc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather2 L uV (Memref.isWhole_whole _) iV (Memref.isWhole_whole _) utV (Memref.isWhole_whole _) itV (Memref.isWhole_whole _)
            o0V (Memref.isWhole_whole _) o1V (Memref.isWhole_whole _)
            suV (Memref.isWhole_whole _) siV (Memref.isWhole_whole _) rV (Memref.isWhole_whole _) cc0_scratch3 cc0_scratch4 cc0_scratch5 cc0_scoped0 cc0_scoped1)
          fun _ => iprop((uChunkPts m d (wL L) ∗ iChunkPts m d (wL L) ∗ utShPts m d (wL L) ∗ itShPts m d (wL L) ∗ o0ChunkPts d (wL L) (out0 m d) ∗ o1ChunkPts d (wL L) (out1 m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather2_eq_skeleton]; unfold cc0_gather2_skel
  rw [(K (F := F)).scopedBufs_V hF d (cV L) (jV L), SparseCore.Cfg.scopedSems0_V (Val := Elt F) d (cV L) (jV L), ownSems0_V, ownBufs_V]
  iintro ⟨#Hlv, -, ⟨Hu, Hi, Hut, Hit, Ho0, Ho1⟩, ⟨⟨%fsu, Hsu⟩, ⟨%fsi, Hsi⟩, ⟨%fr, Hr⟩, Hbufs⟩, ⟨Hs3, Hs4, Hs5, Hc0, Hc1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu' := (Entails.of_eq (pts_uChunkK (F := F) d L _).symm) $$ Hu
  ihave Hi' := (Entails.of_eq (pts_iChunkK (F := F) d L _).symm) $$ Hi
  ihave Ho0' := (Entails.of_eq (pts_o0ChunkK (F := F) d L _).symm) $$ Ho0
  ihave Ho1' := (Entails.of_eq (pts_o1ChunkK (F := F) d L _).symm) $$ Ho1
  ihave Hut' := (Entails.of_eq (pts_utV (F := F) d L _ _).symm) $$ Hut
  ihave Hit' := (Entails.of_eq (pts_itV (F := F) d L _ _).symm) $$ Hit
  ihave Hsu' := (Entails.of_eq (pts_suV (F := F) d L _).symm) $$ Hsu
  ihave Hsi' := (Entails.of_eq (pts_siV (F := F) d L _).symm) $$ Hsi
  ihave Hr' := (Entails.of_eq (pts_rV (F := F) d L _).symm) $$ Hr
  -- the two index fetches and the first one's wait
  sl_exec
  -- the first list's words name rows of the first table: the gather, its wait, the write-back, its wait, the second fetch's wait
  have hinU := u_list_inb m d L hpre fsu (tile_body.sl.dma0 m d L) rfl
  sl_exec
  -- the second list's words name rows of the second table: the gather, its wait, the write-back, its wait
  have hinI := i_list_inb m d L hpre fsi (tile_body.sl.dma0_1 m d L) rfl
  sl_exec
  -- what the two write-backs carried: the row buffer read back is the last gather's payload
  have e0 : tile_body.sl.dma0_2 m d L fsu fr hinU = tile_body.sl.gather0 m d L fsu hinU :=
    View.read_writes_whole (rV).view fr _
  have e1 : tile_body.sl.dma0_3 m d L fsu fsi fr hinU hinI = tile_body.sl.gather0_1 m d L fsi hinI := by
    funext y
    have h := View.read_writes_cons_emb (rV).view fr (Rect.whole _) (tile_body.sl.gather0_1 m d L fsi hinI)
      [⟨Rect.whole _, tile_body.sl.gather0 m d L fsu hinU⟩] y
    rwa [Rect.emb_whole_apply] at h
  have v0 := o0_chunk_value m d L hpre (m (o0Loc d)) _ (View.read_write_univ (v := (suV).view) fsu (tile_body.sl.dma0 m d L)) _ hinU
    (tile_body.sl.gather0 m d L fsu hinU) rfl
  have v1 := o1_chunk_value m d L hpre (m (o1Loc d)) _ (View.read_write_univ (v := (siV).view) fsi (tile_body.sl.dma0_1 m d L)) _ hinI
    (tile_body.sl.gather0_1 m d L fsi hinI) rfl
  rw [e0] ; rw [e1]
  sl_step
  isplitl [Hu' Hi' Hut' Hit' Ho0' Ho1']
  · isplitl [Hu']; · iapply (Entails.of_eq (pts_uChunkK (F := F) d L _)); iexact Hu'
    isplitl [Hi']; · iapply (Entails.of_eq (pts_iChunkK (F := F) d L _)); iexact Hi'
    isplitl [Hut']; · iexact Hut'
    isplitl [Hit']; · iexact Hit'
    isplitl [Ho0']
    · iapply (Entails.of_eq (pointsTo_congr v0)); iapply (Entails.of_eq (pts_o0ChunkK (F := F) d L _)); iexact Ho0'
    · iapply (Entails.of_eq (pointsTo_congr v1)); iapply (Entails.of_eq (pts_o1ChunkK (F := F) d L _)); iexact Ho1'
  isplitl [Hsu' Hsi' Hr' Hbufs]
  · isplitl [Hsu']; · iexists _; iexact Hsu'
    isplitl [Hsi']; · iexists _; iexact Hsi'
    isplitl [Hr']; · iexists _; iexact Hr'
    iexact Hbufs
  isplitl [Hs3 Hs4 Hs5 Hc0 Hc1 Hsems]
  · isplitl [Hs3]; · iexact Hs3
    isplitl [Hs4]; · iexact Hs4
    isplitl [Hs5]; · iexact Hs5
    isplitl [Hc0]; · iexact Hc0
    isplitl [Hc1]; · iexact Hc1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KI

end
-- ==== Proof.LaunchKI.lean ====
/-
  The launch of the lookup kernel and the run of the whole program.  The six arrays are dealt to the 32 tiles — each
  index array and each result by its 32 chunks of 512 rows, each table by 32 equal read shares —, two SparseCores of
  sixteen tiles each, tile `(c, s)` taking chunk `c + 2 s`; every tile returns its chunks of the results holding the
  lookup; joined again, the results are the lookup of the whole arrays and the four arguments are as they were.
-/
import proofs.«203863_g44332652429991_cont_8to1_c_1117_11_alg».proof.Proof.BodyKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uV" => (Memref.whole Cert.KernelIdeal.main_arg0_scv : Memref Cert.KernelIdeal.sig Kind.scVector Space.hbm Cert.KernelIdeal.S16384 EltTy.i32)
local notation "iV" => (Memref.whole Cert.KernelIdeal.main_arg1_scv : Memref Cert.KernelIdeal.sig Kind.scVector Space.hbm Cert.KernelIdeal.S16384 EltTy.i32)
local notation "utV" => (Memref.whole Cert.KernelIdeal.main_arg2_scv : Memref Cert.KernelIdeal.sig Kind.scVector Space.hbm Cert.KernelIdeal.S100000x128 EltTy.f32)
local notation "itV" => (Memref.whole Cert.KernelIdeal.main_arg3_scv : Memref Cert.KernelIdeal.sig Kind.scVector Space.hbm Cert.KernelIdeal.S100000x128 EltTy.f32)
local notation "o0V" => (Memref.whole Cert.KernelIdeal.main_v0_0_scv : Memref Cert.KernelIdeal.sig Kind.scVector Space.hbm Cert.KernelIdeal.S16384x128 EltTy.f32)
local notation "o1V" => (Memref.whole Cert.KernelIdeal.main_v0_1_scv : Memref Cert.KernelIdeal.sig Kind.scVector Space.hbm Cert.KernelIdeal.S16384x128 EltTy.f32)
local notation "suV" => (Memref.whole Cert.KernelIdeal.cc0_scratch0 : Memref Cert.KernelIdeal.sig Kind.scVector Space.vmem Cert.KernelIdeal.S512 EltTy.i32)
local notation "siV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)

variable (m : (ℓ : Loc nD τ sig) → Buf (Elt F) ℓ) (ρ : Dev nD → PrngReg)

/-! ## Tiles and chunks: `(c, s) ↦ c + 2 s` is a bijection of 2 × 16 tiles with 32 chunks -/

def wEquiv : Fin 2 × Fin 16 ≃ Fin 32 where
  toFun p := wOf p.1 p.2
  invFun w := (⟨w.val % 2, Nat.mod_lt _ (by decide)⟩, ⟨w.val / 2, by have := w.isLt; omega⟩)
  left_inv := by
    rintro ⟨c, s⟩
    refine Prod.ext (Fin.ext ?_) (Fin.ext ?_)
    · show (c.val + 2 * s.val) % 2 = c.val
      have := c.isLt; omega
    · show (c.val + 2 * s.val) / 2 = s.val
      have := c.isLt; omega
  right_inv := by
    intro w
    refine Fin.ext ?_
    show w.val % 2 + 2 * (w.val / 2) = w.val
    omega

omit m ρ in
/-- A family over the 32 chunks is the family over the two SparseCores' sixteen tiles. -/
theorem bigSep_tiles (Φ : Fin 32 → sProp 𝕄) :
    bigSep Finset.univ Φ = bigSep Finset.univ fun c : Fin 2 => bigSep Finset.univ fun s : Fin 16 => Φ (wOf c s) := by
  rw [bigSep_univ_equiv wEquiv Φ, bigSep_univ_prod]; rfl

variable [FloatOps F]

/-! ## What the handshakes carry -/

/-- Tile `w`'s holdings: its chunks of the index arrays, its read shares of the tables, its chunks of the results
    at the contents `f0`, `f1`. -/
abbrev tileRes (d : Dev nD) (f0 : Buf (Elt F) (o0Loc d)) (f1 : Buf (Elt F) (o1Loc d)) (w : Fin 32) : sProp 𝕄 :=
  iprop(uChunkPts m d w ∗ iChunkPts m d w ∗ utShPts m d w ∗ itShPts m d w ∗ o0ChunkPts d w f0 ∗ o1ChunkPts d w f1)

/-- The one call hands SparseCore `c` its sixteen tiles' holdings, the results at the launch contents, and gets them
    back with the results at the lookup; each tile its own. -/
def P : (K (F := F)).Pay (nD := nD) (Val := Elt F) (Name := ℕ) (U := UU) where
  st := fun q d c => match q with
    | 0 => bigSep Finset.univ fun s : Fin 16 => tileRes m d (m (o0Loc d)) (m (o1Loc d)) (wOf (Fin.cast nCore_zero c) s)
  dn := fun q d c => match q with
    | 0 => bigSep Finset.univ fun s : Fin 16 => tileRes m d (out0 m d) (out1 m d) (wOf (Fin.cast nCore_zero c) s)
  go := fun q d c i => match q with
    | 0 => tileRes m d (m (o0Loc d)) (m (o1Loc d)) (wOf (Fin.cast nCore_zero c) (Fin.cast nSub_zero i))
  td := fun q d c i => match q with
    | 0 => tileRes m d (out0 m d) (out1 m d) (wOf (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun s : Fin 16 => tileRes m d (m (o0Loc d)) (m (o1Loc d)) (wOf (Fin.cast nCore_zero c) s)))
  dn q d c := match q with
    | 0 => (inferInstance : BI.Storable (upEmb : UEmb _ 𝕄)
      (bigSep Finset.univ fun s : Fin 16 => tileRes m d (out0 m d) (out1 m d) (wOf (Fin.cast nCore_zero c) s)))
  go q d c i := match q with
    | 0 => (inferInstance : BI.Storable (upEmb : UEmb _ 𝕄)
      (tileRes m d (m (o0Loc d)) (m (o1Loc d)) (wOf (Fin.cast nCore_zero c) (Fin.cast nSub_zero i))))
  td q d c i := match q with
    | 0 => (inferInstance : BI.Storable (upEmb : UEmb _ 𝕄)
      (tileRes m d (out0 m d) (out1 m d) (wOf (Fin.cast nCore_zero c) (Fin.cast nSub_zero i))))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather2 (coordsV c s)
          uV (Memref.isWhole_whole _) iV (Memref.isWhole_whole _) utV (Memref.isWhole_whole _) itV (Memref.isWhole_whole _)
          o0V (Memref.isWhole_whole _) o1V (Memref.isWhole_whole _)
          suV (Memref.isWhole_whole _) siV (Memref.isWhole_whole _) rV (Memref.isWhole_whole _)
          cc0_scratch3 cc0_scratch4 cc0_scratch5 cc0_scoped0 cc0_scoped1) ⟨⟩ c s := rfl

omit [FloatOps F] m ρ in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's holdings are its tiles' -/

omit [FloatOps F] m ρ in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileRes m d (m (o0Loc d)) (m (o1Loc d)) (wOf (Fin.cast nCore_zero c) s)) ⊢ |={Set.univ}=> iprop(
      (bigSep Finset.univ fun i : Fin ((K (F := F)).nSub 0) =>
        tileRes m d (m (o0Loc d)) (m (o1Loc d)) (wOf (Fin.cast nCore_zero c) (Fin.cast nSub_zero i)))
      ∗ ((bigSep Finset.univ fun i : Fin ((K (F := F)).nSub 0) =>
          tileRes m d (out0 m d) (out1 m d) (wOf (Fin.cast nCore_zero c) (Fin.cast nSub_zero i)))
          -∗ bigSep Finset.univ fun s : Fin 16 => tileRes m d (out0 m d) (out1 m d) (wOf (Fin.cast nCore_zero c) s)))
  rw [bigSep_tasks (F := F) (fun s => tileRes m d (m (o0Loc d)) (m (o1Loc d)) (wOf (Fin.cast nCore_zero c) s)),
    bigSep_tasks (F := F) (fun s => tileRes m d (out0 m d) (out1 m d) (wOf (Fin.cast nCore_zero c) s))]
  iintro H; imodintro
  isplitl [H]; · iexact H
  iintro H; iexact H

/-! ## The arrays are their 32 chunks; the tables their 32 read shares -/

omit [FloatOps F] m ρ in
theorem ichunks_disjoint : ∀ i ∈ (Finset.univ : Finset (Fin 32)), ∀ j ∈ (Finset.univ : Finset (Fin 32)), i ≠ j → Disjoint (ichunk i).set (ichunk j).set :=
  fun i _ j _ h => Rect.part_disjoint idiv h
omit [FloatOps F] m ρ in
theorem ochunks_disjoint : ∀ i ∈ (Finset.univ : Finset (Fin 32)), ∀ j ∈ (Finset.univ : Finset (Fin 32)), i ≠ j → Disjoint (ochunk i).set (ochunk j).set :=
  fun i _ j _ h => Rect.part_disjoint odiv h

omit [FloatOps F] m ρ in
theorem uPts_chunks (d : Dev nD) (f : Buf (Elt F) (uLoc d)) :
    (uLoc d ↦{fullShare} f : sProp 𝕄) = bigSep Finset.univ fun w : Fin 32 => uLoc d ↦[(ichunk w).set]{fullShare} f := by
  rw [← pointsTo_biUnion Finset.univ (ℓ := uLoc d) (fun w => (ichunk w).set) ichunks_disjoint, Rect.biUnion_part idiv]; try rfl
omit [FloatOps F] m ρ in
theorem iPts_chunks (d : Dev nD) (f : Buf (Elt F) (iLoc d)) :
    (iLoc d ↦{fullShare} f : sProp 𝕄) = bigSep Finset.univ fun w : Fin 32 => iLoc d ↦[(ichunk w).set]{fullShare} f := by
  rw [← pointsTo_biUnion Finset.univ (ℓ := iLoc d) (fun w => (ichunk w).set) ichunks_disjoint, Rect.biUnion_part idiv]; try rfl
omit [FloatOps F] m ρ in
theorem o0Pts_chunks (d : Dev nD) (f : Buf (Elt F) (o0Loc d)) :
    (o0Loc d ↦{fullShare} f : sProp 𝕄) = bigSep Finset.univ fun w : Fin 32 => o0Loc d ↦[(ochunk w).set]{fullShare} f := by
  rw [← pointsTo_biUnion Finset.univ (ℓ := o0Loc d) (fun w => (ochunk w).set) ochunks_disjoint, Rect.biUnion_part odiv]; try rfl
omit [FloatOps F] m ρ in
theorem o1Pts_chunks (d : Dev nD) (f : Buf (Elt F) (o1Loc d)) :
    (o1Loc d ↦{fullShare} f : sProp 𝕄) = bigSep Finset.univ fun w : Fin 32 => o1Loc d ↦[(ochunk w).set]{fullShare} f := by
  rw [← pointsTo_biUnion Finset.univ (ℓ := o1Loc d) (fun w => (ochunk w).set) ochunks_disjoint, Rect.biUnion_part odiv]; try rfl
omit [FloatOps F] m ρ in
theorem utPts_shares (d : Dev nD) (f : Buf (Elt F) (utLoc d)) :
    (utLoc d ↦{fullShare} f : sProp 𝕄) = bigSep Finset.univ fun w : Fin 32 => utLoc d ↦{tq w} f :=
  pointsTo_piecesOf Finset.univ f (by decide) fullShare
omit [FloatOps F] m ρ in
theorem itPts_shares (d : Dev nD) (f : Buf (Elt F) (itLoc d)) :
    (itLoc d ↦{fullShare} f : sProp 𝕄) = bigSep Finset.univ fun w : Fin 32 => itLoc d ↦{tq w} f :=
  pointsTo_piecesOf Finset.univ f (by decide) fullShare

/-- The six arrays, the results at `f0` and `f1`, are the holdings of the two SparseCores' sixteen tiles. -/
theorem whole_tiles (d : Dev nD) (f0 : Buf (Elt F) (o0Loc d)) (f1 : Buf (Elt F) (o1Loc d)) :
    (iprop((uLoc d ↦{fullShare} m (uLoc d)) ∗ (iLoc d ↦{fullShare} m (iLoc d)) ∗ (utLoc d ↦{fullShare} m (utLoc d))
        ∗ (itLoc d ↦{fullShare} m (itLoc d)) ∗ (o0Loc d ↦{fullShare} f0) ∗ (o1Loc d ↦{fullShare} f1)) : sProp 𝕄)
      = bigSep Finset.univ fun c : Fin 2 => bigSep Finset.univ fun s : Fin 16 => tileRes m d f0 f1 (wOf c s) := by
  rw [← bigSep_tiles (F := F) (fun w => tileRes m d f0 f1 w)]
  unfold tileRes uChunkPts iChunkPts utShPts itShPts o0ChunkPts o1ChunkPts
  rw [bigSep_sep', bigSep_sep', bigSep_sep', bigSep_sep', bigSep_sep',
    ← uPts_chunks, ← iPts_chunks, ← utPts_shares, ← itPts_shares, ← o0Pts_chunks, ← o1Pts_chunks]

/-! ## The launch element of the ghost state -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] m ρ in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (utLoc d ↦{fullShare} W main_arg2)
      ∗ (itLoc d ↦{fullShare} W main_arg3) ∗ (o0Loc d ↦{fullShare} W main_v0_0) ∗ o1Loc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => tileRes m d (m (o0Loc d)) (m (o1Loc d)) (wOf c s) :=
  show (bigSep Finset.univ fun c : Fin 2 => bigSep Finset.univ fun s : Fin 16 => tileRes m d (m (o0Loc d)) (m (o1Loc d)) (wOf (Fin.cast nCore_zero c) s)) = _ from
    bigSep_congr fun c _ => bigSep_congr fun s _ => congrArg (fun c' => tileRes m d (m (o0Loc d)) (m (o1Loc d)) (wOf c' s)) (Fin.ext rfl)
theorem dn0_eq (d : Dev nD) : (bigSep Finset.univ fun c : Fin ((K (F := F)).nCore 0) => (P m).dn 0 d c)
    = bigSep Finset.univ fun c : Fin 2 => bigSep Finset.univ fun s : Fin 16 => tileRes m d (out0 m d) (out1 m d) (wOf c s) :=
  show (bigSep Finset.univ fun c : Fin 2 => bigSep Finset.univ fun s : Fin 16 => tileRes m d (out0 m d) (out1 m d) (wOf (Fin.cast nCore_zero c) s)) = _ from
    bigSep_congr fun c _ => bigSep_congr fun s _ => congrArg (fun c' => tileRes m d (out0 m d) (out1 m d) (wOf c' s)) (Fin.ext rfl)

/-- What @main ends holding: the four arguments as they were, the two results at the lookup. -/
abbrev FIN (d : Dev nD) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ (o0Loc d ↦{fullShare} out0 m d) ∗ (o1Loc d ↦{fullShare} out1 m d))

/-- @main on device `d`'s TensorCore: the one call, from the six arrays dealt to the tiles to the six arrays joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Hall, -, -⟩, -⟩
  iapply ((K (F := F)).wp_run (D (F := F)) 𝒱 (EH := EH) (P := P m) κ d 0) $$ [Hst Hall]
  isplitr; · iexact Hctx
  isplitl [Hst]; · iexact Hst
  isplitl [Hall]
  · rw [st0_eq, ← whole_tiles]; iexact Hall
  iintro ⟨Hst, Hdn⟩
  ihave Hdn' := (Entails.of_eq ((dn0_eq m d).trans (whole_tiles m d (out0 m d) (out1 m d)).symm)) $$ Hdn
  imodintro
  isplitl [Hst]; · iexact Hst
  iexact Hdn'

/-! ## The final memory -/

def fq (d : Dev nD) (s' : Phys nD τ sig (Elt F)) : Prop :=
  s'.mem.mem (o0Loc d) = out0 m d ∧ s'.mem.mem (o1Loc d) = out1 m d ∧ s'.mem.mem (uLoc d) = m (uLoc d) ∧ s'.mem.mem (iLoc d) = m (iLoc d)
    ∧ s'.mem.mem (utLoc d) = m (utLoc d) ∧ s'.mem.mem (itLoc d) = m (itLoc d)

omit [FloatOps F] m ρ in
/-- A buffer held whole at `f` is `f` in the memory. -/
theorem agree_whole (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Hu, Hi, Hut, Hit, Ho0, Ho1⟩, HSI⟩
  ihave H := (agree_whole (F := F) (uLoc d) _ s') $$ [HSI Hu]; · isplitl [HSI] <;> iassumption
  icases H with ⟨%h1, HSI⟩
  ihave H := (agree_whole (F := F) (iLoc d) _ s') $$ [HSI Hi]; · isplitl [HSI] <;> iassumption
  icases H with ⟨%h2, HSI⟩
  ihave H := (agree_whole (F := F) (utLoc d) _ s') $$ [HSI Hut]; · isplitl [HSI] <;> iassumption
  icases H with ⟨%h3, HSI⟩
  ihave H := (agree_whole (F := F) (itLoc d) _ s') $$ [HSI Hit]; · isplitl [HSI] <;> iassumption
  icases H with ⟨%h4, HSI⟩
  ihave H := (agree_whole (F := F) (o0Loc d) _ s') $$ [HSI Ho0]; · isplitl [HSI] <;> iassumption
  icases H with ⟨%h5, HSI⟩
  ihave H := (agree_whole (F := F) (o1Loc d) _ s') $$ [HSI Ho1]; · isplitl [HSI] <;> iassumption
  icases H with ⟨%h6, -⟩
  ipureintro; exact ⟨h5, h6, h1, h2, h3, h4⟩

/-! ## The program's run -/

/-- Every result at the lookup of the launch arrays, every argument as it was. -/
def QC : PUnit × MemSt nD τ sig (Elt F) → Prop := fun r => ∀ c : Dev nD,
  r.2.mem (o0Loc c) = out0 m c ∧ r.2.mem (o1Loc c) = out1 m c ∧ r.2.mem (uLoc c) = m (uLoc c) ∧ r.2.mem (iLoc c) = m (iLoc c)
    ∧ r.2.mem (utLoc c) = m (utLoc c) ∧ r.2.mem (itLoc c) = m (itLoc c)

/-- Every weakly fair execution of the program — @main on the TensorCore, the sequencers, the 32 tiles — from a memory
    whose index words all name rows ends, nothing faulting, at the lookup. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefTake.lean ====
/-
  One lookup of the reference, as a value.  The reference's `_take` wraps a negative index around by the table's extent,
  broadcasts the index to a column of start indices, tests per row that the start index lies in `[0, 99999]`, gathers
  the table's rows at the start indices (each read signed and held inside the table) and puts a fill value where the
  test fails.  For index words below the table's extent nothing is wrapped, the test holds on every row and holding the
  start index inside the table changes nothing: the lookup is `Cert.Lookup.rows`.
-/
import proofs.«203863_g44332652429991_cont_8to1_c_1117_11_alg».proof.Proof.Gen.ReferenceIdeal
import proofs.«203863_g44332652429991_cont_8to1_c_1117_11_alg».proof.Proof.Spec
import Idealize.ShloMosaic.Lib.ValueIdx
import Idealize.ShloMosaic.PureOps.Reduce

noncomputable section

namespace Cert.ReferenceIdeal.RefValue

open Cert.ReferenceIdeal Cert.ReferenceIdeal.Gen Idealize.ShloMosaic Idealize.ShloMosaic.ValueIdx

/-! ## Index words below the table's extent -/

/-- Read as a signed integer, a word below 100000 is its unsigned value. -/
theorem toInt_of_lt {w : BitVec 32} (h : w.toNat < 100000) : w.toInt = (w.toNat : Int) :=
  BitVec.toInt_eq_toNat_of_lt (by omega)

/-- Such a word is not negative: the test "index < 0" is the bit 0. -/
theorem slt_zero {w : BitVec 32} (h : w.toNat < 100000) : IntOp.cmpi .slt w 0#32 = 0#1 := by
  have : w.slt 0#32 = false := by
    rw [BitVec.slt, toInt_of_lt h]; simp
  simp only [IntOp.cmpi, this]; rfl

/-- Such a word is at least 0 … -/
theorem sge_zero {w : BitVec 32} (h : w.toNat < 100000) : IntOp.cmpi .sge w 0#32 = 1#1 := by
  have : (0#32).sle w = true := by
    rw [BitVec.sle, toInt_of_lt h]; simp
  simp only [IntOp.cmpi, this]; rfl

/-- … and at most the last row, 99999. -/
theorem sle_last {w : BitVec 32} (h : w.toNat < 100000) : IntOp.cmpi .sle w 99999#32 = 1#1 := by
  have : w.sle 99999#32 = true := by
    rw [BitVec.sle, toInt_of_lt h]
    simp only [decide_eq_true_eq]
    have : (99999#32 : BitVec 32).toInt = 99999 := by decide
    omega
  simp only [IntOp.cmpi, this]; rfl

/-- The gather's dimension numbers: rows of the table (axis 0 collapsed, named by the start index) by whole rows of 128. -/
abbrev rowDims : GatherDims S100000x128 S16384x1 S16384x128 := gather_S100000x128_S16384x1_S16384x128_1_0_n_n_0_1_1128

/-- The column broadcast of a vector reads, at `(r, ·)`, the vector's entry `r`. -/
theorem bcastCol_apply {α : Type} (v : S16384.Idx → α) (i : S16384x1.Idx) :
    broadcastInDim S16384x1 ![0] bcast_S16384_S16384x1_0 v i = v (ix1 ⟨(i 0).val, idx2_lt0 i⟩) := by
  unfold broadcastInDim
  congr 1
  funext a
  match a with
  | ⟨0, _⟩ => rfl

/-- The row broadcast of a vector reads, at `(r, d)`, the vector's entry `r`. -/
theorem bcastRow_apply {α : Type} (v : S16384.Idx → α) (i : S16384x128.Idx) :
    broadcastInDim S16384x128 ![0] bcast_S16384_S16384x128_0 v i = v (ix1 ⟨(i 0).val, idx2_lt0 i⟩) := by
  unfold broadcastInDim
  congr 1
  funext a
  match a with
  | ⟨0, _⟩ => rfl

/-- A left fold by `and` from the bit 1 over bits that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- The row-wise "all" of an array of bits that are all 1, from the bit 1, is 1 on every row. -/
theorem reduce_all_one (x : IVec S16384x1 1) (hx : ∀ i, x i = 1#1) (j : S16384.Idx) :
    Host.reduce IntOp.andi x (constantI S_ 1 1#1) reducesTo_S16384x1_S16384_d1 h_S_ j = 1#1 := by
  rw [Host.reduce_eq_foldl]
  exact foldl_andi_one x _ fun n _ => hx n

/-- THE GATHER READ AT `(r, d)`: the table's entry `(k, d)`, `k` the start index of row `r` read signed and held
    inside the table. Axis 0 of the table is the collapsed one the start index names: start index, no batch, no offset;
    axis 1 is the offset axis: no start, no batch, the result's own coordinate `d`. -/
theorem gather_apply {α : Type} (tbl : S100000x128.Idx → α) (st : IVec S16384x1 32) (r : Fin 16384) (d : Fin 128) :
    Host.gather rowDims tbl st (ix2 r d)
      = tbl (ix2 ⟨min (st (ix2 r (0 : Fin 1))).toInt.toNat 99999, by omega⟩ d) := by
  unfold Host.gather
  congr 1
  funext a
  refine Fin.ext ?_
  match a with
  | ⟨0, _⟩ =>
    show rowDims.start (ix2 r d) st 0 + rowDims.batchCoord (ix2 r d) 0 + rowDims.offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix2 r d) ⟨List.idxOf (0 : Fin 2) rowDims.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show rowDims.start (ix2 r d) st 1 + rowDims.batchCoord (ix2 r d) 1 + rowDims.offCoord (ix2 r d) 1 = d.val
    rw [GatherDims.batchCoord_eq_zero _ _ _ List.not_mem_nil]
    have hs : rowDims.start (ix2 r d) st 1 = 0 := by
      unfold GatherDims.start
      rw [dif_neg (by decide)]
    have ho : rowDims.offCoord (ix2 r d) 1 = d.val := by
      unfold GatherDims.offCoord
      rw [dif_pos (by decide)]
      rfl
    omega

/-! ## One lookup as a value -/

section Value
variable {α : Type}

/-- The index with a negative word wrapped around by the table's extent (`_where` of "index < 0"). -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The wrapped index as the gather's column of start indices. -/
def startCol (idx : IVec S16384 32) : IVec S16384x1 32 :=
  broadcastInDim S16384x1 ![0] bcast_S16384_S16384x1_0 (wrapped idx)

/-- Per row, "the start index lies in `[0, 99999]`": the row-wise "all" of the two comparisons' conjunction. -/
def inRange (idx : IVec S16384 32) : IVec S16384 1 :=
  Host.reduce IntOp.andi
    (andi (cmpi .sge (startCol idx) (broadcastInDim S16384x1 ![] bcast_S_S16384x1 (constantI S_ 32 0#32)))
      (cmpi .sle (startCol idx) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- One lookup: the gathered rows where the start index is in range, `other` (the reference's NaN fill) elsewhere. -/
def take (tbl : S100000x128.Idx → α) (idx : IVec S16384 32) (other : S16384x128.Idx → α) : S16384x128.Idx → α :=
  select (broadcastInDim S16384x128 ![0] bcast_S16384_S16384x128_0 (inRange idx)) (Host.gather rowDims tbl (startCol idx)) other

variable (idx : IVec S16384 32) (h : ∀ i, (idx i).toNat < 100000)
include h

/-- No word is negative, so nothing is wrapped. -/
theorem wrapped_apply (i : S16384.Idx) : wrapped idx i = idx i := by
  show Scalar.select (IntOp.cmpi .slt (idx i) 0#32) _ _ = _
  rw [slt_zero (h i), select_zero]

/-- The start index of row `r` is the `r`-th index word. -/
theorem startCol_apply (i : S16384x1.Idx) : startCol idx i = idx (ix1 ⟨(i 0).val, idx2_lt0 i⟩) := by
  unfold startCol
  rw [bcastCol_apply, wrapped_apply idx h]

/-- Every start index is in range. -/
theorem inRange_apply (j : S16384.Idx) : inRange idx j = 1#1 := by
  unfold inRange
  refine reduce_all_one _ (fun i => ?_) j
  show IntOp.andi (IntOp.cmpi .sge (startCol idx i) 0#32) (IntOp.cmpi .sle (startCol idx i) 99999#32) = 1#1
  rw [startCol_apply idx h, sge_zero (h _), sle_last (h _)]
  rfl

/-- So one lookup is the row lookup: the fill is nowhere taken, and the gather's clamp is the identity. -/
theorem take_eq_rows (tbl : S100000x128.Idx → α) (other : S16384x128.Idx → α) :
    take tbl idx other = Cert.Lookup.rows tbl idx := by
  funext j
  obtain ⟨r, d, rfl⟩ : ∃ r d, j = ix2 r d := ⟨j 0, j 1, eq_ix2 j⟩
  rw [Cert.Lookup.rows_ix2]
  show Scalar.select (broadcastInDim S16384x128 ![0] bcast_S16384_S16384x128_0 (inRange idx) (ix2 r d))
    (Host.gather rowDims tbl (startCol idx) (ix2 r d)) (other (ix2 r d)) = _
  rw [bcastRow_apply, inRange_apply idx h, select_one, gather_apply]
  have hs : startCol idx (ix2 r (0 : Fin 1)) = idx (ix1 r) := startCol_apply idx h _
  have hw := h (ix1 r)
  have e : (⟨min (startCol idx (ix2 r (0 : Fin 1))).toInt.toNat 99999, by omega⟩ : Fin 100000)
      = Cert.Lookup.rowAt (idx (ix1 r)) :=
    Fin.ext (by
      show min (startCol idx (ix2 r (0 : Fin 1))).toInt.toNat 99999 = min (idx (ix1 r)).toNat 99999
      rw [hs]
      have := toInt_of_lt hw
      omega)
  exact congrArg (fun k => tbl (ix2 k d)) e

end Value

end Cert.ReferenceIdeal.RefValue

end
-- ==== Proof.RefRun.lean ====
/-
  The reference's run.  @main is two calls of `_take`, each of which calls `_where`: unfolded at their calls, a straight
  line of forty-six operations.  Every weakly fair execution runs the line to its end; folding the operations' results
  at the two result buffers gives one lookup each (Proof/RefTake.lean), which for index words below the tables' extent
  is the row lookup `Cert.Lookup.rows`; no operation writes an argument.
-/
import proofs.«203863_g44332652429991_cont_8to1_c_1117_11_alg».proof.Proof.RefTake
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The run -/

variable {F : FTy → Type} [FloatOps F]

/-- @main's 46 operations, in order: each `_take` is 23, its call of `_where` (the select of the wrapped index) inline
    as the seventh. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather rowDims x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather rowDims x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

set_option maxRecDepth 1024 in
/-- @main is that straight line: the functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's fill: NaN everywhere. -/
abbrev fill : FVec F S16384x128 .f32 := broadcastInDim S16384x128 ![] bcast_S_S16384x128 (constant S_ .f32 0x7FC00000#32)

-- the fold is forty-six operations deep
set_option maxRecDepth 8192 in
/-- The first result is one lookup of the first table at the first index … -/
theorem out0_eq (V : Valuation τ sig (Elt F)) :
    after ops V (main_v0 : DevRef τ sig)
      = take (α := F .f32) (V (main_arg2 : DevRef τ sig)) (V (main_arg0 : DevRef τ sig)) fill := by
  after_results_simp
  simp only [cast_eq]
  rfl

set_option maxRecDepth 8192 in
/-- … the second of the second table at the second index … -/
theorem out1_eq (V : Valuation τ sig (Elt F)) :
    after ops V (main_v1 : DevRef τ sig)
      = take (α := F .f32) (V (main_arg3 : DevRef τ sig)) (V (main_arg1 : DevRef τ sig)) fill := by
  after_results_simp
  simp only [cast_eq]
  rfl

/-- … and no operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, from any memory with zero counters whose index words are below the tables' extent: every weakly
    fair execution of @main terminates with each result the row lookup of its table at its index, the arguments
    unchanged. -/
theorem run (m : (ℓ : Loc nD τ sig) → Buf (Elt Ideal) ℓ) (ρ : Dev nD → PrngReg)
    (h0 : ∀ (c : Dev nD) (i : S16384.Idx), (m ((c.tc : Thread nD τ).loc main_arg0) i).toNat < 100000)
    (h1 : ∀ (c : Dev nD) (i : S16384.Idx), (m ((c.tc : Thread nD τ).loc main_arg1) i).toNat < 100000) :
    θ_run (defs (F := Ideal)) (onTc (τ := τ) (main (F := Ideal))) ⟨m, fun _ => 0, ρ⟩ (fun r => ∀ c : Dev nD,
        r.2.mem ((c.tc : Thread nD τ).loc main_v0) = Cert.Lookup.rows (m ((c.tc : Thread nD τ).loc main_arg2)) (m ((c.tc : Thread nD τ).loc main_arg0))
      ∧ r.2.mem ((c.tc : Thread nD τ).loc main_v1) = Cert.Lookup.rows (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v0).trans ((out0_eq _).trans (take_eq_rows _ (h0 c) _ _)),
       (h c main_v1).trans ((out1_eq _).trans (take_eq_rows _ (h1 c) _ _)),
       (h c main_arg0).trans (arg0_eq _), (h c main_arg1).trans (arg1_eq _),
       (h c main_arg2).trans (arg2_eq _), (h c main_arg3).trans (arg3_eq _)⟩)
    (run_main m ρ)

end Cert.ReferenceIdeal.RefValue

end
-- ==== Proof.lean ====
/-
  The kernel looks up 16384 rows in each of two tables of 100000 rows of 128 numbers — result `(r, k)` is the table's
  entry `(idx r, k)` — with an indexed row copy per tile of the two SparseCores; the reference does the same with two
  host gathers, each guarded by a wrap of negative indices and a bounds mask.  The precondition puts every index word
  in `[0, 99999]`: then the kernel's unsigned reading of a word, the reference's signed, wrapped and clamped reading,
  and the word's own value are one row number, the wrap and the mask do nothing, and both programs end at the lookup
  function of the argument arrays (Proof/Spec.lean).  No arithmetic touches a float: the equality holds at every
  float instance, and is used at the exact one.

  The three frames are the runs with the values dropped: the kernel's run of its whole thread family (Proof/LaunchK.lean
  at the word-level instance, Proof/LaunchKI.lean at the exact one) and the reference's run (Proof/RefRun.lean); the
  index ranges come out of the precondition in Proof/Domain.lean.  The idealization rewrote nothing, so its claim is `True`.
-/
import proofs.«203863_g44332652429991_cont_8to1_c_1117_11_alg».proof.Defs
import proofs.«203863_g44332652429991_cont_8to1_c_1117_11_alg».proof.Proof.Gen.Kernel
import proofs.«203863_g44332652429991_cont_8to1_c_1117_11_alg».proof.Proof.Gen.Kernel.Skeleton
import proofs.«203863_g44332652429991_cont_8to1_c_1117_11_alg».proof.Proof.Gen.KernelIdeal
import proofs.«203863_g44332652429991_cont_8to1_c_1117_11_alg».proof.Proof.Gen.KernelIdeal.Skeleton
import proofs.«203863_g44332652429991_cont_8to1_c_1117_11_alg».proof.Proof.Gen.ReferenceIdeal
import proofs.«203863_g44332652429991_cont_8to1_c_1117_11_alg».proof.Proof.Gen.Pre_input_domain
import proofs.«203863_g44332652429991_cont_8to1_c_1117_11_alg».proof.Proof.Domain
import proofs.«203863_g44332652429991_cont_8to1_c_1117_11_alg».proof.Proof.LaunchK
import proofs.«203863_g44332652429991_cont_8to1_c_1117_11_alg».proof.Proof.LaunchKI
import proofs.«203863_g44332652429991_cont_8to1_c_1117_11_alg».proof.Proof.RefRun
import Idealize.ShloMosaic.Adequacy
import Idealize.ShloMosaic.Init

noncomputable section

namespace Cert.Proof

open Idealize.ShloMosaic Idealize.SL.Sem

/-- Under the precondition every index word names a row of its table: the word-level kernel's memory. -/
theorem preOK_K (m : (ℓ : Loc Cert.Kernel.nD Cert.Kernel.τ Cert.Kernel.sig) → Buf (Elt Bits) ℓ) (h : Cert.Pre_Kernel m) :
    Cert.Proof.K.PreOK (F := Bits) m :=
  fun d => Cert.Domain.range_of_pre (F := Bits) _ _ _ _ (h d)

/-- The same of the idealized kernel's memory. -/
theorem preOK_KI (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d => Cert.Domain.range_of_pre (F := Ideal) _ _ _ _ (h d)

theorem frame_K : Cert.frame_Kernel := fun m ρ hpre =>
  (θ_run (Cert.Kernel.defs (F := Bits)) _ _).mono (fun _ h c => ⟨(h c).2.2.1, (h c).2.2.2.1, (h c).2.2.2.2.1, (h c).2.2.2.2.2⟩)
    (Cert.Proof.K.run_main (F := Bits) m ρ (preOK_K m hpre))

theorem frame_KI : Cert.frame_KernelIdeal := fun m ρ hpre =>
  (θ_run (Cert.KernelIdeal.defs (F := Ideal)) _ _).mono (fun _ h c => ⟨(h c).2.2.1, (h c).2.2.2.1, (h c).2.2.2.2.1, (h c).2.2.2.2.2⟩)
    (Cert.Proof.KI.run_main (F := Ideal) m ρ (preOK_KI m hpre))

theorem frame_R : Cert.frame_ReferenceIdeal := fun m ρ hpre =>
  (θ_run (Cert.ReferenceIdeal.defs (F := Ideal)) _ _).mono (fun _ h c => (h c).2.2)
    (Cert.ReferenceIdeal.RefValue.run m ρ
      (fun c => (Cert.Domain.range_of_pre (F := Ideal) _ _ _ _ (hpre c)).1)
      (fun c => (Cert.Domain.range_of_pre (F := Ideal) _ _ _ _ (hpre c)).2))

/-- Both idealized programs end at the lookup of the argument arrays, on which their memories agree. -/
theorem algebraic : Cert.algebraic_KernelIdeal_ReferenceIdeal := by
  intro m ρ m' ρ' hpre hagree
  have hok := preOK_KI m hpre
  refine ⟨fun c => Cert.Proof.KI.out0 m c, fun c => Cert.Proof.KI.out1 m c,
    (θ_run (Cert.KernelIdeal.defs (F := Ideal)) _ _).mono (fun _ h c => h c) (Cert.Proof.KI.run_main (F := Ideal) m ρ hok), ?_⟩
  refine (θ_run (Cert.ReferenceIdeal.defs (F := Ideal)) _ _).mono (fun _ h c => ⟨?_, ?_, (h c).2.2⟩)
    (Cert.ReferenceIdeal.RefValue.run m' ρ'
      (fun c i => by rw [(hagree c).1]; exact (hok c).1 i)
      (fun c i => by rw [(hagree c).2.1]; exact (hok c).2 i))
  · rw [(h c).1, (hagree c).1, (hagree c).2.2.1]; rfl
  · rw [(h c).2.1, (hagree c).2.1, (hagree c).2.2.2]; rfl

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
